-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3703 : Shape := ⟨2, ![50000, 3703]⟩
abbrev S2x1600000 : Shape := ⟨2, ![2, 1600000]⟩
abbrev S3703x16 : Shape := ⟨2, ![3703, 16]⟩
abbrev S16 : Shape := ⟨1, ![16]⟩
abbrev S16x6 : Shape := ⟨2, ![16, 6]⟩
abbrev S6 : Shape := ⟨1, ![6]⟩
abbrev S_ : Shape := ⟨0, ![]⟩

class Facts : Prop where
  bcast_S_S50000x3703 : S_.BroadcastsInDim S50000x3703 (![] : Fin 0 → Fin S50000x3703.rank)
  reducesTo_S50000x3703_S_d0_1 : S50000x3703.ReducesTo [0, 1] S_
  h_S_ : 0 < S_.numel
  bcast_S_S3703x16 : S_.BroadcastsInDim S3703x16 (![] : Fin 0 → Fin S3703x16.rank)
  reducesTo_S3703x16_S_d0_1 : S3703x16.ReducesTo [0, 1] S_
  bcast_S_S16 : S_.BroadcastsInDim S16 (![] : Fin 0 → Fin S16.rank)
  reducesTo_S16_S_d0 : S16.ReducesTo [0] S_
  bcast_S_S16x6 : S_.BroadcastsInDim S16x6 (![] : Fin 0 → Fin S16x6.rank)
  reducesTo_S16x6_S_d0_1 : S16x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg5 : FVec F S6 .f32) (main_v13 : IVec S_ 1) (main_v16 : IVec S16x6 1) : IVec S_ 1 :=
  let main_c_5 : IVec S_ 1 := constantI S_ 1 1#1
  let main_v17 : IVec S_ 1 := (fun x v => Host.reduce IntOp.andi x v reducesTo_S16x6_S_d0_1 h_S_) main_v16 main_c_5
  let main_v18 : IVec S_ 1 := andi main_v13 main_v17
  let main_v19 : FVec F S6 .f32 := Host.absf main_arg5
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  main_v23

def fn {F : FTy → Type} [FloatOps F] (main_arg0 : FVec F S50000x3703 .f32) (main_arg1 : IVec S2x1600000 32) (main_arg2 : FVec F S3703x16 .f32) (main_arg3 : FVec F S16 .f32) (main_arg4 : FVec F S16x6 .f32) (main_arg5 : FVec F S6 .f32) : IVec S_ 1 :=
  let main_v0 : FVec F S50000x3703 .f32 := Host.absf main_arg0
  let main_cst : FVec F S_ .f32 := constant S_ .f32 0x7F800000#32
  let main_v1 : FVec F S50000x3703 .f32 := broadcastInDim S50000x3703 ![] bcast_S_S50000x3703 main_cst
  let main_v2 : IVec S50000x3703 1 := cmpf .olt main_v0 main_v1
  let main_c : IVec S_ 1 := constantI S_ 1 1#1
  let main_v3 : IVec S_ 1 := (fun x v => Host.reduce IntOp.andi x v reducesTo_S50000x3703_S_d0_1 h_S_) main_v2 main_c
  let main_v4 : FVec F S3703x16 .f32 := Host.absf main_arg2
  let main_cst_0 : FVec F S_ .f32 := constant S_ .f32 0x7F800000#32
  let main_v5 : FVec F S3703x16 .f32 := broadcastInDim S3703x16 ![] bcast_S_S3703x16 main_cst_0
  let main_v6 : IVec S3703x16 1 := cmpf .olt main_v4 main_v5
  let main_c_1 : IVec S_ 1 := constantI S_ 1 1#1
  let main_v7 : IVec S_ 1 := (fun x v => Host.reduce IntOp.andi x v reducesTo_S3703x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x6 .f32 := Host.absf main_arg4
  let main_cst_4 : FVec F S_ .f32 := constant S_ .f32 0x7F800000#32
  let main_v15 : FVec F S16x6 .f32 := broadcastInDim S16x6 ![] bcast_S_S16x6 main_cst_4
  let main_v16 : IVec S16x6 1 := cmpf .olt main_v14 main_v15
  fn_part1 (F := F) main_arg5 main_v13 main_v16
-- ==== Kernel.lean ====
abbrev S50000x3703 : Shape := ⟨2, ![50000, 3703]⟩
abbrev S2x1600000 : Shape := ⟨2, ![2, 1600000]⟩
abbrev S3703x16 : Shape := ⟨2, ![3703, 16]⟩
abbrev S16 : Shape := ⟨1, ![16]⟩
abbrev S16x6 : Shape := ⟨2, ![16, 6]⟩
abbrev S6 : Shape := ⟨1, ![6]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x16 : Shape := ⟨2, ![50000, 16]⟩
abbrev S1000x3703 : Shape := ⟨2, ![1000, 3703]⟩
abbrev S1000x16 : Shape := ⟨2, ![1000, 16]⟩
abbrev S1650000x16 : Shape := ⟨2, ![1650000, 16]⟩
abbrev S1x16 : Shape := ⟨2, ![1, 16]⟩
abbrev S50000x6 : Shape := ⟨2, ![50000, 6]⟩
abbrev S5000x16 : Shape := ⟨2, ![5000, 16]⟩
abbrev S5000x6 : Shape := ⟨2, ![5000, 6]⟩
abbrev S1650000x6 : Shape := ⟨2, ![1650000, 6]⟩
abbrev S1x6 : Shape := ⟨2, ![1, 6]⟩
abbrev S5000 : Shape := ⟨1, ![5000]⟩
abbrev S5000x1 : Shape := ⟨2, ![5000, 1]⟩

abbrev nBuf : Space → Nat
  | .hbm => 90
  | .vmem => 14
  | .smem => 0
  | _ => 0

abbrev bufTy : (tb : Table) → Fin (tcTables nBuf tb) → BufTy
  | .hbm, ⟨0, _⟩ => ⟨S50000x3703, .f32⟩
  | .hbm, ⟨1, _⟩ => ⟨S2x1600000, .i32⟩
  | .hbm, ⟨2, _⟩ => ⟨S3703x16, .f32⟩
  | .hbm, ⟨3, _⟩ => ⟨S16, .f32⟩
  | .hbm, ⟨4, _⟩ => ⟨S16x6, .f32⟩
  | .hbm, ⟨5, _⟩ => ⟨S6, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x16, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x16, .f32⟩
  | .hbm, ⟨56, _⟩ => ⟨S1650000x1, .f32⟩
  | .hbm, ⟨57, _⟩ => ⟨S1650000x16, .f32⟩
  | .hbm, ⟨58, _⟩ => ⟨S1650000x16, .f32⟩
  | .hbm, ⟨59, _⟩ => ⟨S_, .f32⟩
  | .hbm, ⟨60, _⟩ => ⟨S50000x16, .f32⟩
  | .hbm, ⟨61, _⟩ => ⟨S1650000x1, .i32⟩
  | .hbm, ⟨62, _⟩ => ⟨S50000x16, .f32⟩
  | .hbm, ⟨63, _⟩ => ⟨S1x16, .f32⟩
  | .hbm, ⟨64, _⟩ => ⟨S50000x16, .f32⟩
  | .hbm, ⟨65, _⟩ => ⟨S50000x16, .f32⟩
  | .hbm, ⟨66, _⟩ => ⟨S_, .f32⟩
  | .hbm, ⟨67, _⟩ => ⟨S50000x16, .f32⟩
  | .hbm, ⟨68, _⟩ => ⟨S50000x16, .f32⟩
  | .hbm, ⟨69, _⟩ => ⟨S50000x6, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x6, .f32⟩
  | .hbm, ⟨79, _⟩ => ⟨S1650000x1, .f32⟩
  | .hbm, ⟨80, _⟩ => ⟨S1650000x6, .f32⟩
  | .hbm, ⟨81, _⟩ => ⟨S1650000x6, .f32⟩
  | .hbm, ⟨82, _⟩ => ⟨S_, .f32⟩
  | .hbm, ⟨83, _⟩ => ⟨S50000x6, .f32⟩
  | .hbm, ⟨84, _⟩ => ⟨S1650000x1, .i32⟩
  | .hbm, ⟨85, _⟩ => ⟨S50000x6, .f32⟩
  | .hbm, ⟨86, _⟩ => ⟨S1x6, .f32⟩
  | .hbm, ⟨87, _⟩ => ⟨S50000x6, .f32⟩
  | .hbm, ⟨88, _⟩ => ⟨S50000x6, .f32⟩
  | .hbm, ⟨89, _⟩ => ⟨S50000x6, .f32⟩
  | .local _ .vmem, ⟨0, _⟩ => ⟨S1000x3703, .f32⟩
  | .local _ .vmem, ⟨1, _⟩ => ⟨S1000x3703, .f32⟩
  | .local _ .vmem, ⟨2, _⟩ => ⟨S3703x16, .f32⟩
  | .local _ .vmem, ⟨3, _⟩ => ⟨S1000x16, .f32⟩
  | .local _ .vmem, ⟨4, _⟩ => ⟨S1000x16, .f32⟩
  | .local _ .vmem, ⟨5, _⟩ => ⟨S5000x16, .f32⟩
  | .local _ .vmem, ⟨6, _⟩ => ⟨S5000x16, .f32⟩
  | .local _ .vmem, ⟨7, _⟩ => ⟨S16x6, .f32⟩
  | .local _ .vmem, ⟨8, _⟩ => ⟨S5000x6, .f32⟩
  | .local _ .vmem, ⟨9, _⟩ => ⟨S5000x6, .f32⟩
  | .local _ .vmem, ⟨10, _⟩ => ⟨S5000x6, .f32⟩
  | .local _ .vmem, ⟨11, _⟩ => ⟨S5000x6, .f32⟩
  | .local _ .vmem, ⟨12, _⟩ => ⟨S5000x6, .f32⟩
  | .local _ .vmem, ⟨13, _⟩ => ⟨S5000x6, .f32⟩
  | _, _ => ⟨S50000x3703, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3703 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3703x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x6 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x6 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S1000x3703_S1000x3703_0_0 : ∀ a, (![0, 0] : Fin 2 → Nat) a + S1000x3703.size a ≤ S1000x3703.size a
  h_S1000x3703 : 0 < S1000x3703.numel
  bitsLt_bf16_f32 : FTy.bits .bf16 < FTy.bits .f32
  inb_S3703x16_S3703x16_0_0 : ∀ a, (![0, 0] : Fin 2 → Nat) a + S3703x16.size a ≤ S3703x16.size a
  h_S3703x16 : 0 < S3703x16.numel
  inb_S1000x16_S1000x16_0_0 : ∀ a, (![0, 0] : Fin 2 → Nat) a + S1000x16.size a ≤ S1000x16.size a
  h_S1000x16 : 0 < S1000x16.numel
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x6_S16x6_0_0 : ∀ a, (![0, 0] : Fin 2 → Nat) a + S16x6.size a ≤ S16x6.size a
  h_S16x6 : 0 < S16x6.numel
  inb_S5000x6_S5000x6_0_0 : ∀ a, (![0, 0] : Fin 2 → Nat) a + S5000x6.size a ≤ S5000x6.size a
  h_S5000x6 : 0 < S5000x6.numel
  bcast_S1650000x1_S1650000x6_0_1 : S1650000x1.BroadcastsInDim S1650000x6 (![0, 1] : Fin 2 → Fin S1650000x6.rank)
  bcast_S_S50000x6 : S_.BroadcastsInDim S50000x6 (![] : Fin 0 → Fin S50000x6.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  shapeCasts_S5000x6_S5000x6 : S5000x6.ShapeCasts S5000x6
  reduces_S5000x6_S5000 : S5000x6.Reduces [1] S5000
  shapeCasts_S5000_S5000x1 : S5000.ShapeCasts S5000x1
  broadcasts_S5000x1_S5000x6 : S5000x1.Broadcasts S5000x6
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1000x3703_S3703x16_S1000x16_1_0_0_1_n_n_wf : DotDims.WF S1000x3703 S3703x16 S1000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  dot_S5000x16_S16x6_S5000x6_1_0_0_1_n_n_wf : DotDims.WF S5000x16 S16x6 S5000x6 [1] [0] [0] [1] [] []
  gather_S50000x6_S1650000x1_S1650000x6_1_0_n_n_0_1_16_wf : GatherDims.WF S50000x6 S1650000x1 S1650000x6 [1] [0] [] [0] [] 1 ![1, 6]
  scatter_S50000x6_S1650000x1_S1650000x6_1_0_0_1_wf : ScatterDims.WF S50000x6 S1650000x1 S1650000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3703.size a ≤ S50000x3703.size a
  hwx0_0 : ∀ i : grid0.Coords, EltTy.bits .f32 = 32 ∨ (Rect.block (s := S50000x3703) S1000x3703.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3703x16.size a ≤ S3703x16.size a
  hwx0_1 : ∀ i : grid0.Coords, EltTy.bits .f32 = 32 ∨ (Rect.block (s := S3703x16) S3703x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x16.size a ≤ S50000x16.size a
  hwx0_2 : ∀ i : grid0.Coords, EltTy.bits .f32 = 32 ∨ (Rect.block (s := S50000x16) S1000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x6.size a ≤ S16x6.size a
  hwx1_1 : ∀ i : grid1.Coords, EltTy.bits .f32 = 32 ∨ (Rect.block (s := S16x6) S16x6.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x6.size a ≤ S50000x6.size a
  hwx1_2 : ∀ i : grid1.Coords, EltTy.bits .f32 = 32 ∨ (Rect.block (s := S50000x6) S5000x6.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x6.size a ≤ S50000x6.size a
  hwx2_0 : ∀ i : grid2.Coords, EltTy.bits .f32 = 32 ∨ (Rect.block (s := S50000x6) S5000x6.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x6.size a ≤ S50000x6.size a
  hwx2_1 : ∀ i : grid2.Coords, EltTy.bits .f32 = 32 ∨ (Rect.block (s := S50000x6) S5000x6.size (cc2_transform_1 i) (hinb2_1 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1000x3703_S3703x16_S1000x16_1_0_0_1_n_n : DotDims S1000x3703 S3703x16 S1000x16 where
  lhsContracting := [1]
  rhsContracting := [0]
  lhsNonContracting := [0]
  rhsNonContracting := [1]
  lhsBatch := []
  rhsBatch := []
  wf := dot_S1000x3703_S3703x16_S1000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def dot_S5000x16_S16x6_S5000x6_1_0_0_1_n_n : DotDims S5000x16 S16x6 S5000x6 where
  lhsContracting := [1]
  rhsContracting := [0]
  lhsNonContracting := [0]
  rhsNonContracting := [1]
  lhsBatch := []
  rhsBatch := []
  wf := dot_S5000x16_S16x6_S5000x6_1_0_0_1_n_n_wf
def gather_S50000x6_S1650000x1_S1650000x6_1_0_n_n_0_1_16 : GatherDims S50000x6 S1650000x1 S1650000x6 where
  offsetDims := [1]
  collapsedSliceDims := [0]
  operandBatchingDims := []
  startIndicesBatchingDims := []
  startIndexMap := [0]
  indexVectorDim := 1
  sliceSizes := ![1, 6]
  wf := gather_S50000x6_S1650000x1_S1650000x6_1_0_n_n_0_1_16_wf
def scatter_S50000x6_S1650000x1_S1650000x6_1_0_0_1 : ScatterDims S50000x6 S1650000x1 S1650000x6 where
  updateWindowDims := [1]
  insertedWindowDims := [0]
  scatterDimsToOperandDims := [0]
  indexVectorDim := 1
  wf := scatter_S50000x6_S1650000x1_S1650000x6_1_0_0_1_wf

abbrev win0_0 : Pipeline.Window sig grid0 :=
  Pipeline.Window.ofSpec (Memref.whole main_arg0) S1000x3703.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3703x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x6.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x6.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x3703 : Shape := ⟨2, ![50000, 3703]⟩
abbrev S2x1600000 : Shape := ⟨2, ![2, 1600000]⟩
abbrev S3703x16 : Shape := ⟨2, ![3703, 16]⟩
abbrev S16 : Shape := ⟨1, ![16]⟩
abbrev S16x6 : Shape := ⟨2, ![16, 6]⟩
abbrev S6 : Shape := ⟨1, ![6]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x16 : Shape := ⟨2, ![50000, 16]⟩
abbrev S1650000x16 : Shape := ⟨2, ![1650000, 16]⟩
abbrev S1x16 : Shape := ⟨2, ![1, 16]⟩
abbrev S50000x6 : Shape := ⟨2, ![50000, 6]⟩
abbrev S1650000x6 : Shape := ⟨2, ![1650000, 6]⟩
abbrev S1x6 : Shape := ⟨2, ![1, 6]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x3703, .f32⟩
  | .hbm, ⟨1, _⟩ => ⟨S2x1600000, .i32⟩
  | .hbm, ⟨2, _⟩ => ⟨S3703x16, .f32⟩
  | .hbm, ⟨3, _⟩ => ⟨S16, .f32⟩
  | .hbm, ⟨4, _⟩ => ⟨S16x6, .f32⟩
  | .hbm, ⟨5, _⟩ => ⟨S6, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S1650000, .i32⟩
  | .hbm, ⟨29, _⟩ => ⟨S1650000, .i1⟩
  | .hbm, ⟨30, _⟩ => ⟨S_, .i32⟩
  | .hbm, ⟨31, _⟩ => ⟨S1650000, .i32⟩
  | .hbm, ⟨32, _⟩ => ⟨S1650000, .i32⟩
  | .hbm, ⟨33, _⟩ => ⟨S1650000, .i32⟩
  | .hbm, ⟨34, _⟩ => ⟨S1650000x1, .i32⟩
  | .hbm, ⟨35, _⟩ => ⟨S1650000, .f32⟩
  | .hbm, ⟨36, _⟩ => ⟨S_, .i32⟩
  | .hbm, ⟨37, _⟩ => ⟨S1650000, .i32⟩
  | .hbm, ⟨38, _⟩ => ⟨S1650000, .i1⟩
  | .hbm, ⟨39, _⟩ => ⟨S_, .i32⟩
  | .hbm, ⟨40, _⟩ => ⟨S1650000, .i32⟩
  | .hbm, ⟨41, _⟩ => ⟨S1650000, .i32⟩
  | .hbm, ⟨42, _⟩ => ⟨S1650000, .i32⟩
  | .hbm, ⟨43, _⟩ => ⟨S1650000x1, .i32⟩
  | .hbm, ⟨44, _⟩ => ⟨S1650000, .f32⟩
  | .hbm, ⟨45, _⟩ => ⟨S1650000, .f32⟩
  | .hbm, ⟨46, _⟩ => ⟨S50000x16, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x16, .f32⟩
  | .hbm, ⟨56, _⟩ => ⟨S1650000x1, .f32⟩
  | .hbm, ⟨57, _⟩ => ⟨S1650000x16, .f32⟩
  | .hbm, ⟨58, _⟩ => ⟨S1650000x16, .f32⟩
  | .hbm, ⟨59, _⟩ => ⟨S_, .f32⟩
  | .hbm, ⟨60, _⟩ => ⟨S50000x16, .f32⟩
  | .hbm, ⟨61, _⟩ => ⟨S1650000x1, .i32⟩
  | .hbm, ⟨62, _⟩ => ⟨S50000x16, .f32⟩
  | .hbm, ⟨63, _⟩ => ⟨S1x16, .f32⟩
  | .hbm, ⟨64, _⟩ => ⟨S50000x16, .f32⟩
  | .hbm, ⟨65, _⟩ => ⟨S50000x16, .f32⟩
  | .hbm, ⟨66, _⟩ => ⟨S_, .f32⟩
  | .hbm, ⟨67, _⟩ => ⟨S50000x16, .f32⟩
  | .hbm, ⟨68, _⟩ => ⟨S50000x16, .f32⟩
  | .hbm, ⟨69, _⟩ => ⟨S50000x6, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x6, .f32⟩
  | .hbm, ⟨79, _⟩ => ⟨S1650000x1, .f32⟩
  | .hbm, ⟨80, _⟩ => ⟨S1650000x6, .f32⟩
  | .hbm, ⟨81, _⟩ => ⟨S1650000x6, .f32⟩
  | .hbm, ⟨82, _⟩ => ⟨S_, .f32⟩
  | .hbm, ⟨83, _⟩ => ⟨S50000x6, .f32⟩
  | .hbm, ⟨84, _⟩ => ⟨S1650000x1, .i32⟩
  | .hbm, ⟨85, _⟩ => ⟨S50000x6, .f32⟩
  | .hbm, ⟨86, _⟩ => ⟨S1x6, .f32⟩
  | .hbm, ⟨87, _⟩ => ⟨S50000x6, .f32⟩
  | .hbm, ⟨88, _⟩ => ⟨S50000x6, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x6, .f32⟩
  | .hbm, ⟨96, _⟩ => ⟨S50000x6, .f32⟩
  | .hbm, ⟨97, _⟩ => ⟨S50000x6, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x6, .f32⟩
  | .hbm, ⟨103, _⟩ => ⟨S50000x6, .f32⟩
  | _, _ => ⟨S50000x3703, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x16_0_1 : S1650000x1.BroadcastsInDim S1650000x16 (![0, 1] : Fin 2 → Fin S1650000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S1650000x1_S1650000x6_0_1 : S1650000x1.BroadcastsInDim S1650000x6 (![0, 1] : Fin 2 → Fin S1650000x6.rank)
  bcast_S_S50000x6 : S_.BroadcastsInDim S50000x6 (![] : Fin 0 → Fin S50000x6.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  reducesTo_S50000x6_S50000_d1 : S50000x6.ReducesTo [1] S50000
  h_S_ : 0 < S_.numel
  bcast_S50000_S50000x1_0 : S50000.BroadcastsInDim S50000x1 (![0] : Fin 1 → Fin S50000x1.rank)
  bcast_S50000x1_S50000x6_0_1 : S50000x1.BroadcastsInDim S50000x6 (![0, 1] : Fin 2 → Fin S50000x6.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x3703_S3703x16_S50000x16_1_0_0_1_n_n_wf : DotDims.WF S50000x3703 S3703x16 S50000x16 [1] [0] [0] [1] [] []
  gather_S50000x16_S1650000x1_S1650000x16_1_0_n_n_0_1_116_wf : GatherDims.WF S50000x16 S1650000x1 S1650000x16 [1] [0] [] [0] [] 1 ![1, 16]
  scatter_S50000x16_S1650000x1_S1650000x16_1_0_0_1_wf : ScatterDims.WF S50000x16 S1650000x1 S1650000x16 [1] [0] [0] 1
  dot_S50000x16_S16x6_S50000x6_1_0_0_1_n_n_wf : DotDims.WF S50000x16 S16x6 S50000x6 [1] [0] [0] [1] [] []
  gather_S50000x6_S1650000x1_S1650000x6_1_0_n_n_0_1_16_wf : GatherDims.WF S50000x6 S1650000x1 S1650000x6 [1] [0] [] [0] [] 1 ![1, 6]
  scatter_S50000x6_S1650000x1_S1650000x6_1_0_0_1_wf : ScatterDims.WF S50000x6 S1650000x1 S1650000x6 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x3703_S3703x16_S50000x16_1_0_0_1_n_n : DotDims S50000x3703 S3703x16 S50000x16 where
  lhsContracting := [1]
  rhsContracting := [0]
  lhsNonContracting := [0]
  rhsNonContracting := [1]
  lhsBatch := []
  rhsBatch := []
  wf := dot_S50000x3703_S3703x16_S50000x16_1_0_0_1_n_n_wf
def gather_S50000x16_S1650000x1_S1650000x16_1_0_n_n_0_1_116 : GatherDims S50000x16 S1650000x1 S1650000x16 where
  offsetDims := [1]
  collapsedSliceDims := [0]
  operandBatchingDims := []
  startIndicesBatchingDims := []
  startIndexMap := [0]
  indexVectorDim := 1
  sliceSizes := ![1, 16]
  wf := gather_S50000x16_S1650000x1_S1650000x16_1_0_n_n_0_1_116_wf
def scatter_S50000x16_S1650000x1_S1650000x16_1_0_0_1 : ScatterDims S50000x16 S1650000x1 S1650000x16 where
  updateWindowDims := [1]
  insertedWindowDims := [0]
  scatterDimsToOperandDims := [0]
  indexVectorDim := 1
  wf := scatter_S50000x16_S1650000x1_S1650000x16_1_0_0_1_wf
def dot_S50000x16_S16x6_S50000x6_1_0_0_1_n_n : DotDims S50000x16 S16x6 S50000x6 where
  lhsContracting := [1]
  rhsContracting := [0]
  lhsNonContracting := [0]
  rhsNonContracting := [1]
  lhsBatch := []
  rhsBatch := []
  wf := dot_S50000x16_S16x6_S50000x6_1_0_0_1_n_n_wf
def gather_S50000x6_S1650000x1_S1650000x6_1_0_n_n_0_1_16 : GatherDims S50000x6 S1650000x1 S1650000x6 where
  offsetDims := [1]
  collapsedSliceDims := [0]
  operandBatchingDims := []
  startIndicesBatchingDims := []
  startIndexMap := [0]
  indexVectorDim := 1
  sliceSizes := ![1, 6]
  wf := gather_S50000x6_S1650000x1_S1650000x6_1_0_n_n_0_1_16_wf
def scatter_S50000x6_S1650000x1_S1650000x6_1_0_0_1 : ScatterDims S50000x6 S1650000x1 S1650000x6 where
  updateWindowDims := [1]
  insertedWindowDims := [0]
  scatterDimsToOperandDims := [0]
  indexVectorDim := 1
  wf := scatter_S50000x6_S1650000x1_S1650000x6_1_0_0_1_wf

class Facts : Prop extends Facts₀ where

variable [Facts]
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.Rows.lean ====
/-
  The two entrywise formulas of a graph-convolution network's dense steps, over the extended reals.

  • A matrix product: entry (p, g) of an [a, K] array times a [K, N] array is the sum over k < K of the left
    array at (p, k) times the right array at (k, g). It reads the left array only in row p.
  • A row-wise log-softmax of an [a, b] array z: with M the maximum of row p (the fold of max from the value of
    the −∞ word), entry (p, q) is (z(p,q) − M) − log(Σ_k exp(z(p,k) − M)). It reads z only in row p.

  Both facts "reads only row p" are what lets a computation done block of rows by block of rows be compared with
  the same computation done on the whole array: a block's row is a row of the array.
-/
import Idealize.ShloMosaic.PureOps.Ideal
import Idealize.ShloMosaic.Lib.ValueIdx

noncomputable section

namespace Cert.Gcn

open Idealize.ShloMosaic Idealize.ShloMosaic.ValueIdx

/-- Entry (p, g) of the product of an [a, K] array and a [K, N] array. -/
def dotAt {a K N : ℕ} (l : (⟨2, ![a, K]⟩ : Shape).Idx → EReal) (r : (⟨2, ![K, N]⟩ : Shape).Idx → EReal)
    (p : Fin a) (g : Fin N) : EReal :=
  ∑ k : Fin K, l (ix2 p k) * r (ix2 k g)

/-- The product's entry (p, g) reads the left array only in row p. -/
theorem dotAt_congr_row {a a' K N : ℕ} (l : (⟨2, ![a, K]⟩ : Shape).Idx → EReal) (l' : (⟨2, ![a', K]⟩ : Shape).Idx → EReal)
    (r : (⟨2, ![K, N]⟩ : Shape).Idx → EReal) (p : Fin a) (p' : Fin a') (g : Fin N)
    (h : ∀ k : Fin K, l (ix2 p k) = l' (ix2 p' k)) : dotAt l r p g = dotAt l' r p' g := by
  unfold dotAt
  exact Finset.sum_congr rfl fun k _ => by rw [h k]

/-- The maximum of row p: the fold of max over the row's entries, from the value of the f32 word of −∞. -/
def rowMax {a b : ℕ} (z : (⟨2, ![a, b]⟩ : Shape).Idx → EReal) (p : Fin a) : EReal :=
  (Finset.univ : Finset (Fin b)).fold max (Ideal.ofBits .f32 0xFF800000#32) fun k => z (ix2 p k)

/-- Entry (p, q) of the row-wise log-softmax: the entry less the row's maximum, less the logarithm of the row's sum
    of exponentials of the entries less that maximum. -/
def logSoftmaxAt {a b : ℕ} (z : (⟨2, ![a, b]⟩ : Shape).Idx → EReal) (p : Fin a) (q : Fin b) : EReal :=
  (z (ix2 p q) - rowMax z p) - Ideal.log (∑ k : Fin b, Ideal.exp (z (ix2 p k) - rowMax z p))

/-- The row maximum reads the array only in row p. -/
theorem rowMax_congr_row {a a' b : ℕ} (z : (⟨2, ![a, b]⟩ : Shape).Idx → EReal) (z' : (⟨2, ![a', b]⟩ : Shape).Idx → EReal)
    (p : Fin a) (p' : Fin a') (h : ∀ k : Fin b, z (ix2 p k) = z' (ix2 p' k)) : rowMax z p = rowMax z' p' := by
  unfold rowMax
  exact congrArg (fun f : Fin b → EReal => (Finset.univ : Finset (Fin b)).fold max (Ideal.ofBits .f32 0xFF800000#32) f)
    (funext h)

/-- The log-softmax's entry (p, q) reads the array only in row p. -/
theorem logSoftmaxAt_congr_row {a a' b : ℕ} (z : (⟨2, ![a, b]⟩ : Shape).Idx → EReal) (z' : (⟨2, ![a', b]⟩ : Shape).Idx → EReal)
    (p : Fin a) (p' : Fin a') (q : Fin b) (h : ∀ k : Fin b, z (ix2 p k) = z' (ix2 p' k)) :
    logSoftmaxAt z p q = logSoftmaxAt z' p' q := by
  unfold logSoftmaxAt
  rw [rowMax_congr_row z z' p p' h, h q]
  exact congrArg (fun s : EReal => (z' (ix2 p' q) - rowMax z' p') - Ideal.log s)
    (Finset.sum_congr rfl fun k _ => by rw [h k])

/-- The f32 word of −∞ is the least extended real: a maximum against it is the other argument. -/
theorem max_negInf (y : EReal) : max (Ideal.ofBits .f32 0xFF800000#32) y = y := by
  simp [Ideal.ofBits, Ideal.ieee]

end Cert.Gcn

end
-- ==== Proof.Payloads.lean ====
/-
  What each of the three kernel bodies stores, read at an entry of its block, over the extended reals.

  The two product bodies round their operands to bf16 (the identity on the extended reals) and multiply into a zero
  accumulator: entry (p, g) of the stored block is the product's entry. The log-softmax body takes the row maximum of
  its [5000, 6] block along the last axis from −∞, spreads it back over the row, subtracts, exponentiates, sums each row
  from 0, takes the logarithm and subtracts again: entry (p, q) of the stored block is the row-wise log-softmax's entry.
-/
import proofs.«161500_j11123965296881_1_alg».proof.Proof.Gen.KernelIdeal.Skeleton
import proofs.«161500_j11123965296881_1_alg».proof.Proof.LibPlainDot
import proofs.«161500_j11123965296881_1_alg».proof.Proof.LibAxisFolds
import proofs.«161500_j11123965296881_1_alg».proof.Proof.LibKeepdims
import proofs.«161500_j11123965296881_1_alg».proof.Proof.Rows
import Idealize.ShloMosaic.Lib.Pipeline.Value
import Idealize.ShloMosaic.Lib.ValueIdx
import Idealize.ShloMosaic.PureOps.Ideal.Laws

noncomputable section

namespace Cert.KernelIdeal.Blocks

open Cert.KernelIdeal Cert.KernelIdeal.Gen Idealize.ShloMosaic Idealize.ShloMosaic.ValueIdx Cert.Gcn

/-- The first product body: entry (p, g) of the stored [1000, 16] block is the sum over the 3703 features of the
    block of x at (p, k) times the weight at (k, g). -/
theorem product1_apply (x0 : Vec Ideal S1000x3703 .f32) (x1 : Vec Ideal S3703x16 .f32) (p : Fin 1000) (g : Fin 16) :
    k0_pay1 (F := Ideal) x0 x1 (ix2 p g) = dotAt x0 x1 p g := by
  unfold k0_pay1 dotAt
  exact Cert.PlainDot.matmul_zero_apply dot_S1000x3703_S3703x16_S1000x16_1_0_0_1_n_n rfl _ _ p g

/-- The second product body: entry (p, g) of the stored [5000, 6] block is the sum over the 16 hidden features. -/
theorem product2_apply (x0 : Vec Ideal S5000x16 .f32) (x1 : Vec Ideal S16x6 .f32) (p : Fin 5000) (g : Fin 6) :
    k1_pay1 (F := Ideal) x0 x1 (ix2 p g) = dotAt x0 x1 p g := by
  unfold k1_pay1 dotAt
  rw [shapeCast_self]
  exact Cert.PlainDot.matmul_zero_apply dot_S5000x16_S16x6_S5000x6_1_0_0_1_n_n rfl _ _ p g

/-- The row maximum, kept as a column and spread back over the row: at (p, q) it is the maximum of row p. -/
theorem spreadMax_apply (x : Vec Ideal S5000x6 .f32) (p : Fin 5000) (q : Fin 6) :
    broadcastTo S5000x6 (shapeCast S5000x1 (multiReduction (F := Ideal) .maximumf [1] S5000 x 0xFF800000#32 reduces_S5000x6_S5000 (.inl rfl) rfl)
      shapeCasts_S5000_S5000x1) broadcasts_S5000x1_S5000x6 (ix2 p q) = rowMax x p :=
  (Cert.Lib.Keepdims.broadcastTo_a1_ab_apply _ _ p q).trans
    ((Cert.Lib.Keepdims.shapeCast_a_a1_apply _ _ p 0).trans (Cert.Lib.AxisFolds.lastMax_apply x _ _ _ _ p))

/-- The logarithm of a row's sum, kept as a column and spread back over the row: at (p, q) it is the logarithm of the
    sum of row p. -/
theorem spreadLogSum_apply (y : FVec Ideal S5000x6 .f32) (p : Fin 5000) (q : Fin 6) :
    broadcastTo S5000x6 (log (shapeCast S5000x1 (multiReduction (F := Ideal) .add [1] S5000 y 0x00000000#32 reduces_S5000x6_S5000 (.inl rfl) rfl)
      shapeCasts_S5000_S5000x1)) broadcasts_S5000x1_S5000x6 (ix2 p q) = Ideal.log (∑ k : Fin 6, y (ix2 p k)) :=
  (Cert.Lib.Keepdims.broadcastTo_a1_ab_apply _ _ p q).trans
    (congrArg Ideal.log ((Cert.Lib.Keepdims.shapeCast_a_a1_apply _ _ p 0).trans (Cert.Lib.Keepdims.laneSum_apply y _ _ _ _ p)))

/-- The log-softmax body: entry (p, q) of the stored block is the row-wise log-softmax of the loaded block. -/
theorem logSoftmax_apply (x : Vec Ideal S5000x6 .f32) (p : Fin 5000) (q : Fin 6) :
    k2_pay1 (F := Ideal) x (ix2 p q) = logSoftmaxAt x p q := by
  unfold k2_pay1 logSoftmaxAt
  rw [shapeCast_self]
  refine (subf_apply _ _ _).trans ?_
  rw [spreadLogSum_apply]
  rw [subf_apply, spreadMax_apply]
  refine congrArg (fun s : EReal => (x (ix2 p q) - rowMax x p) - Ideal.log s) (Finset.sum_congr rfl fun k _ => ?_)
  show Ideal.exp (subf (F := Ideal) x _ (ix2 p k)) = _
  rw [subf_apply, spreadMax_apply]

end Cert.KernelIdeal.Blocks

end
-- ==== Proof.Arrays.lean ====
/-
  Each region's output array as one function of the arrays the region finds, over the extended reals.

  Each of the three regions walks a one-dimensional grid over blocks of consecutive rows: point t reads rows
  [t·B, (t+1)·B) of its row-blocked input (and, for a product, the whole weight array), and writes back the same rows
  of its output. Row r of a block at point t is row t·B + r of the array, and both the product's entry and the
  log-softmax's entry read their row-blocked input only in that one row; so what point t writes back is block t of ONE
  function of the whole arrays. The blocks tile the output (row i is in block i / B), so after the region the output
  array is that function:
    region 0: the [50000, 16] array of products of the rows of x with W1 (B = 1000, 50 points);
    region 1: the [50000, 6] array of products of the rows of the hidden array with W2 (B = 5000, 10 points);
    region 2: the row-wise log-softmax of the [50000, 6] array (B = 5000, 10 points).
  All three are stated at the contents V the region is entered with, whatever they are.
-/
import proofs.«161500_j11123965296881_1_alg».proof.Proof.Gen.KernelIdeal.Frame
import proofs.«161500_j11123965296881_1_alg».proof.Proof.Payloads
import Idealize.ShloMosaic.Lib.Pipeline.Value

set_option maxRecDepth 16384

noncomputable section

namespace Cert.KernelIdeal.Arrays

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-! ## Rows of a block are rows of the array -/

/-- A block of 1000 rows of x, starting at row r0, times the whole weight array: entry (p, g) of the stored block is
    the product's entry at row r0 + p of x. -/
theorem product1_rows (X : S50000x3703.Idx → EReal) (W : S3703x16.Idx → EReal)
    (e0 : S1000x3703.Idx → S50000x3703.Idx) (e1 : S3703x16.Idx → S3703x16.Idx) (r0 : ℕ)
    (h00 : ∀ y, (e0 y 0).val = r0 + (y 0).val) (h01 : ∀ y, (e0 y 1).val = (y 1).val) (h1 : ∀ y, e1 y = y)
    (p : Fin 1000) (g : Fin 16) (rp : Fin 50000) (gq : Fin 16) (hr : rp.val = r0 + p.val) (hg : gq.val = g.val) :
    k0_pay1 (F := Ideal) (fun y => X (e0 y)) (fun y => W (e1 y)) (ix2 p g) = dotAt X W rp gq := by
  have hgq : gq = g := Fin.ext hg
  subst hgq
  rw [Blocks.product1_apply]
  have hW : (fun y => W (e1 y)) = W := funext fun y => by rw [h1]
  rw [hW]
  exact dotAt_congr_row _ X W p rp gq fun k => congrArg X (funext fun a => Fin.ext (by
    match a with
    | ⟨0, _⟩ => exact (h00 _).trans hr.symm
    | ⟨1, _⟩ => exact h01 _))

/-- The same for a block of 5000 rows of the hidden array times the second weight array. -/
theorem product2_rows (X : S50000x16.Idx → EReal) (W : S16x6.Idx → EReal)
    (e0 : S5000x16.Idx → S50000x16.Idx) (e1 : S16x6.Idx → S16x6.Idx) (r0 : ℕ)
    (h00 : ∀ y, (e0 y 0).val = r0 + (y 0).val) (h01 : ∀ y, (e0 y 1).val = (y 1).val) (h1 : ∀ y, e1 y = y)
    (p : Fin 5000) (g : Fin 6) (rp : Fin 50000) (gq : Fin 6) (hr : rp.val = r0 + p.val) (hg : gq.val = g.val) :
    k1_pay1 (F := Ideal) (fun y => X (e0 y)) (fun y => W (e1 y)) (ix2 p g) = dotAt X W rp gq := by
  have hgq : gq = g := Fin.ext hg
  subst hgq
  rw [Blocks.product2_apply]
  have hW : (fun y => W (e1 y)) = W := funext fun y => by rw [h1]
  rw [hW]
  exact dotAt_congr_row _ X W p rp gq fun k => congrArg X (funext fun a => Fin.ext (by
    match a with
    | ⟨0, _⟩ => exact (h00 _).trans hr.symm
    | ⟨1, _⟩ => exact h01 _))

/-- A block of 5000 rows of z, starting at row r0: entry (p, q) of the stored block is the log-softmax's entry at row
    r0 + p of z. -/
theorem logSoftmax_rows (Z : S50000x6.Idx → EReal) (e0 : S5000x6.Idx → S50000x6.Idx) (r0 : ℕ)
    (h00 : ∀ y, (e0 y 0).val = r0 + (y 0).val) (h01 : ∀ y, (e0 y 1).val = (y 1).val)
    (p : Fin 5000) (q : Fin 6) (rp : Fin 50000) (qq : Fin 6) (hr : rp.val = r0 + p.val) (hq : qq.val = q.val) :
    k2_pay1 (F := Ideal) (fun y => Z (e0 y)) (ix2 p q) = logSoftmaxAt Z rp qq := by
  have hqq : qq = q := Fin.ext hq
  subst hqq
  rw [Blocks.logSoftmax_apply]
  exact logSoftmaxAt_congr_row _ Z p rp qq fun k => congrArg Z (funext fun a => Fin.ext (by
    match a with
    | ⟨0, _⟩ => exact (h00 _).trans hr.symm
    | ⟨1, _⟩ => exact h01 _))

/-! ## Region 0: the first product -/

/-- The printed index maps over the grid: the row-blocked input's block moves with the output's along the rows only,
    and the weight array's one block stays put. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 49 :=
  (by decide +kernel : ∀ t : Fin grid0.N, _)

/-- Every block of rows is some point's. -/
theorem idx_onto0 : ∀ q0 : Fin 50, ∃ t : Fin cfg0.N, win0_2.index t (0 : Fin 2) = q0.val :=
  (by decide +kernel : ∀ q0 : Fin 50, ∃ t : Fin grid0.N, win0_2.index t (0 : Fin 2) = q0.val)

/-- What point t writes back is block t of the product of the row-blocked input array with the weight array. -/
theorem flushed0_eq (c : Dev nD) (t : Fin cfg0.N) :
    (dat0 V c).flushed 2 t = ((cfg0.win 2).blk t).view.read (Elt Ideal)
      (fun i : S50000x16.Idx => dotAt (a := 50000) (K := 3703) (N := 16) (V c main_arg0) (V c main_arg2) (i 0) (i 1)) := by
  show (cfg0.win 2).cut (grid0.coords t) ((dat0 V c).after 2 t) = _
  rw [after0_2]
  unfold out0_2
  rw [View.canon_unit_zero zero_offsets]
  simp only [View.ld_unit_zero (S := S1000x3703) zero_offsets, View.ld_unit_zero (S := S3703x16) zero_offsets]
  obtain ⟨f0, f1, f2, f3, f4, f5⟩ := idx_facts0 t
  funext j
  obtain ⟨p, g, rfl⟩ : ∃ (p : Fin 1000) (g : Fin 16), j = ix2 p g := ⟨j 0, j 1, eq_ix2 j⟩
  exact product1_rows (V c main_arg0) (V c main_arg2) (((cfg0.win 0).blk t).view.emb) (((cfg0.win 1).blk t).view.emb)
    (win0_2.index t (0 : Fin 2) * 1000)
    (fun y => by show win0_0.index t (0 : Fin 2) * 1000 + 1 * (y 0).val = _; omega)
    (fun y => by show win0_0.index t (1 : Fin 2) * 3703 + 1 * (y 1).val = _; omega)
    (fun y => funext fun a => Fin.ext (by
      match a with
      | ⟨0, _⟩ => show win0_1.index t (0 : Fin 2) * 3703 + 1 * (y 0).val = (y 0).val; omega
      | ⟨1, _⟩ => show win0_1.index t (1 : Fin 2) * 16 + 1 * (y 1).val = (y 1).val; omega))
    p g _ _
    (by show win0_2.index t (0 : Fin 2) * 1000 + 1 * p.val = _; omega)
    (by show win0_2.index t (1 : Fin 2) * 16 + 1 * g.val = _; omega)

/-- An index of the output array is in point t's block iff each coordinate is in the block's range. -/
theorem mem_blk0 (t : Fin cfg0.N) (i : S50000x16.Idx) :
    i ∈ ((cfg0.win 2).blk t).view.set ↔ ∀ a : Fin 2, win0_2.index t a * S1000x16.size a ≤ (i a).val ∧ (i a).val < win0_2.index t a * S1000x16.size a + S1000x16.size a := by
  show i ∈ ((View.whole main_v30).slice (win0_2.rect t)).set ↔ _
  rw [View.set_slice_whole, Rect.mem_set_unit]
  exact Iff.rfl

/-- Row i of the output is in the block of point i / 1000. -/
theorem cover0 (i : S50000x16.Idx) : ∃ t : Fin cfg0.N, (cfg0.win 2).flush t = true ∧ i ∈ ((cfg0.win 2).blk t).view.set := by
  have hi0 : (i 0).val < 50000 := (i 0).isLt
  have hi1 : (i 1).val < 16 := (i 1).isLt
  obtain ⟨t, ht⟩ := idx_onto0 ⟨(i 0).val / 1000, by omega⟩
  have ht' : win0_2.index t (0 : Fin 2) = (i 0).val / 1000 := ht
  obtain ⟨f0, f1, f2, f3, f4, f5⟩ := idx_facts0 t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 16 ≤ (i 1).val ∧ (i 1).val < win0_2.index t (1 : Fin 2) * 16 + 16; omega

/-- After region 0 its output array is the product of its row-blocked input array with its weight array. -/
theorem final0 (c : Dev nD) : (dat0 V c).arrAt 2 cfg0.N
    = fun i : S50000x16.Idx => dotAt (a := 50000) (K := 3703) (N := 16) (V c main_arg0) (V c main_arg2) (i 0) (i 1) :=
  (dat0 V c).arrAt_eq_of_cover 2 _ (fun t _ => flushed0_eq V c t) cover0

/-! ## Region 1: the second product -/

/-- The printed index maps over the grid: the row-blocked input's block moves with the output's along the rows only,
    and the weight array's one block stays put. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem idx_onto1 : ∀ q0 : Fin 10, ∃ t : Fin cfg1.N, win1_2.index t (0 : Fin 2) = q0.val :=
  (by decide +kernel : ∀ q0 : Fin 10, ∃ t : Fin grid1.N, win1_2.index t (0 : Fin 2) = q0.val)

/-- What point t writes back is block t of the product of the row-blocked input array with the weight array. -/
theorem flushed1_eq (c : Dev nD) (t : Fin cfg1.N) :
    (dat1 V c).flushed 2 t = ((cfg1.win 2).blk t).view.read (Elt Ideal)
      (fun i : S50000x6.Idx => dotAt (a := 50000) (K := 16) (N := 6) (V c main_v47) (V c main_arg4) (i 0) (i 1)) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S16x6) zero_offsets]
  obtain ⟨f0, f1, f2, f3, f4, f5⟩ := idx_facts1 t
  funext j
  obtain ⟨p, g, rfl⟩ : ∃ (p : Fin 5000) (g : Fin 6), j = ix2 p g := ⟨j 0, j 1, eq_ix2 j⟩
  exact product2_rows (V c main_v47) (V c main_arg4) (((cfg1.win 0).blk t).view.emb) (((cfg1.win 1).blk t).view.emb)
    (win1_2.index t (0 : Fin 2) * 5000)
    (fun y => by show win1_0.index t (0 : Fin 2) * 5000 + 1 * (y 0).val = _; omega)
    (fun y => by show win1_0.index t (1 : Fin 2) * 16 + 1 * (y 1).val = _; omega)
    (fun y => funext fun a => Fin.ext (by
      match a with
      | ⟨0, _⟩ => show win1_1.index t (0 : Fin 2) * 16 + 1 * (y 0).val = (y 0).val; omega
      | ⟨1, _⟩ => show win1_1.index t (1 : Fin 2) * 6 + 1 * (y 1).val = (y 1).val; omega))
    p g _ _
    (by show win1_2.index t (0 : Fin 2) * 5000 + 1 * p.val = _; omega)
    (by show win1_2.index t (1 : Fin 2) * 6 + 1 * g.val = _; omega)

/-- An index of the output array is in point t's block iff each coordinate is in the block's range. -/
theorem mem_blk1 (t : Fin cfg1.N) (i : S50000x6.Idx) :
    i ∈ ((cfg1.win 2).blk t).view.set ↔ ∀ a : Fin 2, win1_2.index t a * S5000x6.size a ≤ (i a).val ∧ (i a).val < win1_2.index t a * S5000x6.size a + S5000x6.size a := by
  show i ∈ ((View.whole main_v48).slice (win1_2.rect t)).set ↔ _
  rw [View.set_slice_whole, Rect.mem_set_unit]
  exact Iff.rfl

/-- Row i of the output is in the block of point i / 5000. -/
theorem cover1 (i : S50000x6.Idx) : ∃ t : Fin cfg1.N, (cfg1.win 2).flush t = true ∧ i ∈ ((cfg1.win 2).blk t).view.set := by
  have hi0 : (i 0).val < 50000 := (i 0).isLt
  have hi1 : (i 1).val < 6 := (i 1).isLt
  obtain ⟨t, ht⟩ := idx_onto1 ⟨(i 0).val / 5000, by omega⟩
  have ht' : win1_2.index t (0 : Fin 2) = (i 0).val / 5000 := ht
  obtain ⟨f0, f1, f2, f3, f4, f5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 6 ≤ (i 1).val ∧ (i 1).val < win1_2.index t (1 : Fin 2) * 6 + 6; omega

/-- After region 1 its output array is the product of its row-blocked input array with its weight array. -/
theorem final1 (c : Dev nD) : (dat1 V c).arrAt 2 cfg1.N
    = fun i : S50000x6.Idx => dotAt (a := 50000) (K := 16) (N := 6) (V c main_v47) (V c main_arg4) (i 0) (i 1) :=
  (dat1 V c).arrAt_eq_of_cover 2 _ (fun t _ => flushed1_eq V c t) cover1

/-! ## Region 2: the log-softmax -/

/-- The printed index maps over the grid: the input's block moves with the output's, both along the rows only. -/
theorem idx_facts2 : ∀ t : Fin cfg2.N, win2_0.index t (0 : Fin 2) = win2_1.index t (0 : Fin 2)
    ∧ win2_0.index t (1 : Fin 2) = 0 ∧ win2_1.index t (1 : Fin 2) = 0 ∧ win2_1.index t (0 : Fin 2) ≤ 9 :=
  (by decide +kernel : ∀ t : Fin grid2.N, _)

/-- Every block of rows is some point's. -/
theorem idx_onto2 : ∀ q0 : Fin 10, ∃ t : Fin cfg2.N, win2_1.index t (0 : Fin 2) = q0.val :=
  (by decide +kernel : ∀ q0 : Fin 10, ∃ t : Fin grid2.N, win2_1.index t (0 : Fin 2) = q0.val)

/-- What point t writes back is block t of the row-wise log-softmax of the input array. -/
theorem flushed2_eq (c : Dev nD) (t : Fin cfg2.N) :
    (dat2 V c).flushed 1 t = ((cfg2.win 1).blk t).view.read (Elt Ideal)
      (fun i : S50000x6.Idx => logSoftmaxAt (a := 50000) (b := 6) (V c main_v64) (i 0) (i 1)) := by
  show (cfg2.win 1).cut (grid2.coords t) ((dat2 V c).after 1 t) = _
  rw [after2_1]
  unfold out2_1
  rw [View.canon_unit_zero zero_offsets]
  simp only [View.ld_unit_zero (S := S5000x6) zero_offsets]
  obtain ⟨f0, f1, f2, f3⟩ := idx_facts2 t
  funext j
  obtain ⟨p, q, rfl⟩ : ∃ (p : Fin 5000) (q : Fin 6), j = ix2 p q := ⟨j 0, j 1, eq_ix2 j⟩
  exact logSoftmax_rows (V c main_v64) (((cfg2.win 0).blk t).view.emb) (win2_1.index t (0 : Fin 2) * 5000)
    (fun y => by show win2_0.index t (0 : Fin 2) * 5000 + 1 * (y 0).val = _; omega)
    (fun y => by show win2_0.index t (1 : Fin 2) * 6 + 1 * (y 1).val = _; omega)
    p q _ _
    (by show win2_1.index t (0 : Fin 2) * 5000 + 1 * p.val = _; omega)
    (by show win2_1.index t (1 : Fin 2) * 6 + 1 * q.val = _; omega)

/-- An index of the output array is in point t's block iff each coordinate is in the block's range. -/
theorem mem_blk2 (t : Fin cfg2.N) (i : S50000x6.Idx) :
    i ∈ ((cfg2.win 1).blk t).view.set ↔ ∀ a : Fin 2, win2_1.index t a * S5000x6.size a ≤ (i a).val ∧ (i a).val < win2_1.index t a * S5000x6.size a + S5000x6.size a := by
  show i ∈ ((View.whole main_v65).slice (win2_1.rect t)).set ↔ _
  rw [View.set_slice_whole, Rect.mem_set_unit]
  exact Iff.rfl

/-- Row i of the output is in the block of point i / 5000. -/
theorem cover2 (i : S50000x6.Idx) : ∃ t : Fin cfg2.N, (cfg2.win 1).flush t = true ∧ i ∈ ((cfg2.win 1).blk t).view.set := by
  have hi0 : (i 0).val < 50000 := (i 0).isLt
  have hi1 : (i 1).val < 6 := (i 1).isLt
  obtain ⟨t, ht⟩ := idx_onto2 ⟨(i 0).val / 5000, by omega⟩
  have ht' : win2_1.index t (0 : Fin 2) = (i 0).val / 5000 := ht
  obtain ⟨f0, f1, f2, f3⟩ := idx_facts2 t
  refine ⟨t, flush2_1 t, ?_⟩
  rw [mem_blk2]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 6 ≤ (i 1).val ∧ (i 1).val < win2_1.index t (1 : Fin 2) * 6 + 6; omega

/-- After region 2 its output array is the row-wise log-softmax of its input array. -/
theorem final2 (c : Dev nD) : (dat2 V c).arrAt 1 cfg2.N
    = fun i : S50000x6.Idx => logSoftmaxAt (a := 50000) (b := 6) (V c main_v64) (i 0) (i 1) :=
  (dat2 V c).arrAt_eq_of_cover 1 _ (fun t _ => flushed2_eq V c t) cover2

end Cert.KernelIdeal.Arrays

end
-- ==== Proof.Glue.lean ====
/-
  The host-side steps of the graph convolution as pure functions of arrays.

  Both programs run the same host operations around their dense steps; here each stretch is one function of the arrays
  it reads, spelt as the composition of operations @main performs:
  • `src`, `dst`: the 1650000 edge endpoints — the given 1600000 edges (row 0 / row 1 of the edge array) followed by
    one self-loop per node;
  • `wrap`: an index vector with negative entries shifted up by the node count, as a column of start indices;
  • `degInvSqrt`: per node, 1/sqrt of its in-degree (the count of edges ending there) where that is positive, else 0;
  • `norm`: per edge, the product of that quantity at its two endpoints;
  • `aggregate16` / `aggregate6`: gather the rows of a node array at the edges' sources, scale each by the edge's norm,
    and add them up at the edges' destinations;
  • `layer1`: aggregate, add the bias, clamp below at 0;  `layer2`: aggregate, add the bias.
  Nothing is proved about these functions: the two programs are compared by showing that each computes exactly these
  compositions around its own dense steps.
-/
import proofs.«161500_j11123965296881_1_alg».proof.KernelIdeal
import proofs.«161500_j11123965296881_1_alg».proof.Proof.Gen.KernelIdeal

noncomputable section

namespace Cert.KernelIdeal.Glue

open Cert.KernelIdeal Idealize.ShloMosaic
open Cert.KernelIdeal.Facts₀

variable {F : FTy → Type} [FloatOps F]

/-- The edges' sources: row 0 of the edge array, then every node once. -/
def src (e : (⟨S2x1600000, .i32⟩ : BufTy).Contents (Elt F)) : (⟨S1650000, .i32⟩ : BufTy).Contents (Elt F) :=
  concatenate S1650000 0 [⟨S1600000, shapeCast S1600000 (extractStridedSlice S1x1600000 ![0, 0] e slices_S2x1600000_S1x1600000_0_0) shapeCasts_S1x1600000_S1600000⟩,
    ⟨S50000, iotaInDim S50000 32 0⟩] concatenates_S1600000_S50000_S1650000_d0

/-- The edges' destinations: row 1 of the edge array, then every node once. -/
def dst (e : (⟨S2x1600000, .i32⟩ : BufTy).Contents (Elt F)) : (⟨S1650000, .i32⟩ : BufTy).Contents (Elt F) :=
  concatenate S1650000 0 [⟨S1600000, shapeCast S1600000 (extractStridedSlice S1x1600000 ![1, 0] e slices_S2x1600000_S1x1600000_1_0) shapeCasts_S1x1600000_S1600000⟩,
    ⟨S50000, iotaInDim S50000 32 0⟩] concatenates_S1600000_S50000_S1650000_d0

/-- An index vector as a column of start indices, a negative entry first shifted up by the node count. -/
def wrap (v : (⟨S1650000, .i32⟩ : BufTy).Contents (Elt F)) : (⟨S1650000x1, .i32⟩ : BufTy).Contents (Elt F) :=
  broadcastInDim S1650000x1 ![0] bcast_S1650000_S1650000x1_0
    (select (cmpi .slt v (broadcastInDim S1650000 ![] bcast_S_S1650000 (constantI S_ 32 0#32)))
      (addi v (broadcastInDim S1650000 ![] bcast_S_S1650000 (constantI S_ 32 50000#32))) v)

/-- Per node, the number of edges ending there. -/
def degree (e : (⟨S2x1600000, .i32⟩ : BufTy).Contents (Elt F)) : (⟨S50000, .f32⟩ : BufTy).Contents (Elt F) :=
  Host.scatterAdd scatter_S50000_S1650000x1_S1650000_n_0_0_1
    (broadcastInDim S50000 ![] bcast_S_S50000 (constant (F := F) S_ .f32 0x00000000#32))
    (broadcastInDim S1650000x1 ![0] bcast_S1650000_S1650000x1_0 (dst e))
    (broadcastInDim S1650000 ![] bcast_S_S1650000 (constant (F := F) S_ .f32 0x3F800000#32))

/-- Per node, whether its degree is positive. -/
def degPositive (e : (⟨S2x1600000, .i32⟩ : BufTy).Contents (Elt F)) : (⟨S50000, .i1⟩ : BufTy).Contents (Elt F) :=
  cmpf .ogt (degree e) (broadcastInDim S50000 ![] bcast_S_S50000 (constant (F := F) S_ .f32 0x00000000#32))

/-- Per node, 1/sqrt of its degree. -/
def degRsqrt (e : (⟨S2x1600000, .i32⟩ : BufTy).Contents (Elt F)) : (⟨S50000, .f32⟩ : BufTy).Contents (Elt F) :=
  Host.rsqrt (degree e)

/-- The scalar 0. -/
def zeroScalar : (⟨S_, .f32⟩ : BufTy).Contents (Elt F) := constant (F := F) S_ .f32 0x00000000#32

/-- Per node, the second vector where the first holds, else the scalar spread over the nodes (jnp.where). -/
def whereOr (p : (⟨S50000, .i1⟩ : BufTy).Contents (Elt F)) (r : (⟨S50000, .f32⟩ : BufTy).Contents (Elt F))
    (z : (⟨S_, .f32⟩ : BufTy).Contents (Elt F)) : (⟨S50000, .f32⟩ : BufTy).Contents (Elt F) :=
  select p r (broadcastInDim S50000 ![] bcast_S_S50000 (id z))

/-- Per node, 1/sqrt of its degree where the degree is positive, else 0. -/
def degInvSqrt (e : (⟨S2x1600000, .i32⟩ : BufTy).Contents (Elt F)) : (⟨S50000, .f32⟩ : BufTy).Contents (Elt F) :=
  whereOr (degPositive e) (degRsqrt e) zeroScalar

/-- Per edge, the product of a per-node vector at its source and at its destination. -/
def edgeNorm (q : (⟨S50000, .f32⟩ : BufTy).Contents (Elt F)) (s d : (⟨S1650000, .i32⟩ : BufTy).Contents (Elt F)) :
    (⟨S1650000, .f32⟩ : BufTy).Contents (Elt F) :=
  mulf (Host.gather gather_S50000_S1650000x1_S1650000_n_0_n_n_0_1_1 q (wrap s))
    (Host.gather gather_S50000_S1650000x1_S1650000_n_0_n_n_0_1_1 q (wrap d))

/-- Per edge, the product of `degInvSqrt` at its source and at its destination. -/
def norm (e : (⟨S2x1600000, .i32⟩ : BufTy).Contents (Elt F)) : (⟨S1650000, .f32⟩ : BufTy).Contents (Elt F) :=
  edgeNorm (degInvSqrt e) (src e) (dst e)

/-- Rows of a [50000, 16] node array gathered at the edges' sources, scaled by the edges' norms, summed at the edges'
    destinations. The three edge vectors are parameters. -/
def aggregate16 (s d : (⟨S1650000, .i32⟩ : BufTy).Contents (Elt F)) (n : (⟨S1650000, .f32⟩ : BufTy).Contents (Elt F))
    (h : (⟨S50000x16, .f32⟩ : BufTy).Contents (Elt F)) : (⟨S50000x16, .f32⟩ : BufTy).Contents (Elt F) :=
  Host.scatterAdd scatter_S50000x16_S1650000x1_S1650000x16_1_0_0_1
    (broadcastInDim S50000x16 ![] bcast_S_S50000x16 (constant (F := F) S_ .f32 0x00000000#32))
    (broadcastInDim S1650000x1 ![0] bcast_S1650000_S1650000x1_0 d)
    (mulf (Host.gather gather_S50000x16_S1650000x1_S1650000x16_1_0_n_n_0_1_116 h (wrap s))
      (broadcastInDim S1650000x16 ![0, 1] bcast_S1650000x1_S1650000x16_0_1 (broadcastInDim S1650000x1 ![0] bcast_S1650000_S1650000x1_0 n)))

/-- The aggregated [50000, 16] array with the bias added along the rows. -/
def biased16 (s d : (⟨S1650000, .i32⟩ : BufTy).Contents (Elt F)) (n : (⟨S1650000, .f32⟩ : BufTy).Contents (Elt F))
    (h : (⟨S50000x16, .f32⟩ : BufTy).Contents (Elt F)) (b1 : (⟨S16, .f32⟩ : BufTy).Contents (Elt F)) :
    (⟨S50000x16, .f32⟩ : BufTy).Contents (Elt F) :=
  addf (aggregate16 s d n h)
    (broadcastInDim S50000x16 ![0, 1] bcast_S1x16_S50000x16_0_1 (broadcastInDim S1x16 ![1] bcast_S16_S1x16_1 b1))

/-- A [50000, 16] array clamped below at 0. -/
def clamp16 (a : (⟨S50000x16, .f32⟩ : BufTy).Contents (Elt F)) : (⟨S50000x16, .f32⟩ : BufTy).Contents (Elt F) :=
  maximumf a (broadcastInDim S50000x16 ![] bcast_S_S50000x16 (constant (F := F) S_ .f32 0x00000000#32))

/-- The first layer after its dense step: aggregate, add the bias along the rows, clamp below at 0. -/
def layer1 (s d : (⟨S1650000, .i32⟩ : BufTy).Contents (Elt F)) (n : (⟨S1650000, .f32⟩ : BufTy).Contents (Elt F))
    (h : (⟨S50000x16, .f32⟩ : BufTy).Contents (Elt F)) (b1 : (⟨S16, .f32⟩ : BufTy).Contents (Elt F)) :
    (⟨S50000x16, .f32⟩ : BufTy).Contents (Elt F) :=
  clamp16 (biased16 s d n h b1)

/-- The same aggregation of a [50000, 6] node array. -/
def aggregate6 (s d : (⟨S1650000, .i32⟩ : BufTy).Contents (Elt F)) (n : (⟨S1650000, .f32⟩ : BufTy).Contents (Elt F))
    (h : (⟨S50000x6, .f32⟩ : BufTy).Contents (Elt F)) : (⟨S50000x6, .f32⟩ : BufTy).Contents (Elt F) :=
  Host.scatterAdd scatter_S50000x6_S1650000x1_S1650000x6_1_0_0_1
    (broadcastInDim S50000x6 ![] bcast_S_S50000x6 (constant (F := F) S_ .f32 0x00000000#32))
    (broadcastInDim S1650000x1 ![0] bcast_S1650000_S1650000x1_0 d)
    (mulf (Host.gather gather_S50000x6_S1650000x1_S1650000x6_1_0_n_n_0_1_16 h (wrap s))
      (broadcastInDim S1650000x6 ![0, 1] bcast_S1650000x1_S1650000x6_0_1 (broadcastInDim S1650000x1 ![0] bcast_S1650000_S1650000x1_0 n)))

/-- The second layer after its dense step: aggregate, add the bias along the rows. -/
def layer2 (s d : (⟨S1650000, .i32⟩ : BufTy).Contents (Elt F)) (n : (⟨S1650000, .f32⟩ : BufTy).Contents (Elt F))
    (h : (⟨S50000x6, .f32⟩ : BufTy).Contents (Elt F)) (b2 : (⟨S6, .f32⟩ : BufTy).Contents (Elt F)) :
    (⟨S50000x6, .f32⟩ : BufTy).Contents (Elt F) :=
  addf (aggregate6 s d n h)
    (broadcastInDim S50000x6 ![0, 1] bcast_S1x6_S50000x6_0_1 (broadcastInDim S1x6 ![1] bcast_S6_S1x6_1 b2))

end Cert.KernelIdeal.Glue

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.KStretches.lean ====
/-
  The idealized kernel's host stretches, each read at the buffer it computes.

  Between its regions the program runs six stretches of host operations. Over ANY contents V of the buffers a stretch
  starts from, the buffer it computes ends at one of the functions of `Glue` applied to V's contents at the buffers the
  stretch reads, and a buffer the stretch does not write keeps V's contents. Stated over an arbitrary V, these facts are
  about the operations alone; the run's particular contents are put in afterwards.
-/
import proofs.«161500_j11123965296881_1_alg».proof.Proof.Gen.KernelIdeal.Launch
import proofs.«161500_j11123965296881_1_alg».proof.Proof.Glue
import proofs.«161500_j11123965296881_1_alg».proof.Proof.LibHostCalls
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable (V : Valuation τ sig (Elt Ideal))

/-! ## The first stretch: endpoints, degrees -/

set_option maxHeartbeats 16000000 in
theorem s0_src : after hostOps0 V (Proc.devRef .tc main_v3) = Cert.KernelIdeal.Glue.src (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 16000000 in
theorem s0_dst : after hostOps0 V (Proc.devRef .tc main_v6) = Cert.KernelIdeal.Glue.dst (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 16000000 in
theorem s0_pos : after hostOps0 V (Proc.devRef .tc main_v12) = Cert.KernelIdeal.Glue.degPositive (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 16000000 in
theorem s0_rsqrt : after hostOps0 V (Proc.devRef .tc main_v13) = Cert.KernelIdeal.Glue.degRsqrt (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 4000000 in
theorem s0_zero : after hostOps0 V (Proc.devRef .tc main_cst_2) = Cert.KernelIdeal.Glue.zeroScalar (F := Ideal) := by
  after_results_simp
  rfl

set_option maxHeartbeats 4000000 in
theorem s0_keep_arg0 : after hostOps0 V (Proc.devRef .tc main_arg0) = V (Proc.devRef .tc main_arg0) := by after_results_simp
set_option maxHeartbeats 4000000 in
theorem s0_keep_arg2 : after hostOps0 V (Proc.devRef .tc main_arg2) = V (Proc.devRef .tc main_arg2) := by after_results_simp
set_option maxHeartbeats 4000000 in
theorem s0_keep_arg3 : after hostOps0 V (Proc.devRef .tc main_arg3) = V (Proc.devRef .tc main_arg3) := by after_results_simp
set_option maxHeartbeats 4000000 in
theorem s0_keep_arg4 : after hostOps0 V (Proc.devRef .tc main_arg4) = V (Proc.devRef .tc main_arg4) := by after_results_simp
set_option maxHeartbeats 4000000 in
theorem s0_keep_arg5 : after hostOps0 V (Proc.devRef .tc main_arg5) = V (Proc.devRef .tc main_arg5) := by after_results_simp

/-! ## The outlined where -/

set_option maxHeartbeats 4000000 in
theorem s01_val : after hostOps0_1 V (Proc.devRef .tc main_v14)
    = Cert.KernelIdeal.Glue.whereOr (F := Ideal) (V (Proc.devRef .tc main_v12)) (V (Proc.devRef .tc main_v13)) (V (Proc.devRef .tc main_cst_2)) := by
  after_results_simp
  simp only [Cert.Lib.HostCalls.ofBuf_toBuf]
  rfl

set_option maxHeartbeats 4000000 in
theorem s01_keep_v3 : after hostOps0_1 V (Proc.devRef .tc main_v3) = V (Proc.devRef .tc main_v3) := by after_results_simp
set_option maxHeartbeats 4000000 in
theorem s01_keep_v6 : after hostOps0_1 V (Proc.devRef .tc main_v6) = V (Proc.devRef .tc main_v6) := by after_results_simp
set_option maxHeartbeats 4000000 in
theorem s01_keep_arg0 : after hostOps0_1 V (Proc.devRef .tc main_arg0) = V (Proc.devRef .tc main_arg0) := by after_results_simp
set_option maxHeartbeats 4000000 in
theorem s01_keep_arg2 : after hostOps0_1 V (Proc.devRef .tc main_arg2) = V (Proc.devRef .tc main_arg2) := by after_results_simp
set_option maxHeartbeats 4000000 in
theorem s01_keep_arg3 : after hostOps0_1 V (Proc.devRef .tc main_arg3) = V (Proc.devRef .tc main_arg3) := by after_results_simp
set_option maxHeartbeats 4000000 in
theorem s01_keep_arg4 : after hostOps0_1 V (Proc.devRef .tc main_arg4) = V (Proc.devRef .tc main_arg4) := by after_results_simp
set_option maxHeartbeats 4000000 in
theorem s01_keep_arg5 : after hostOps0_1 V (Proc.devRef .tc main_arg5) = V (Proc.devRef .tc main_arg5) := by after_results_simp

/-! ## The per-edge norms -/

set_option maxHeartbeats 8000000 in
theorem s02_val : after hostOps0_2 V (Proc.devRef .tc main_v29)
    = Cert.KernelIdeal.Glue.edgeNorm (F := Ideal) (V (Proc.devRef .tc main_v14)) (V (Proc.devRef .tc main_v3)) (V (Proc.devRef .tc main_v6)) := by
  after_results_simp
  rfl

set_option maxHeartbeats 4000000 in
theorem s02_keep_v3 : after hostOps0_2 V (Proc.devRef .tc main_v3) = V (Proc.devRef .tc main_v3) := by after_results_simp
set_option maxHeartbeats 4000000 in
theorem s02_keep_v6 : after hostOps0_2 V (Proc.devRef .tc main_v6) = V (Proc.devRef .tc main_v6) := by after_results_simp
set_option maxHeartbeats 4000000 in
theorem s02_keep_arg0 : after hostOps0_2 V (Proc.devRef .tc main_arg0) = V (Proc.devRef .tc main_arg0) := by after_results_simp
set_option maxHeartbeats 4000000 in
theorem s02_keep_arg2 : after hostOps0_2 V (Proc.devRef .tc main_arg2) = V (Proc.devRef .tc main_arg2) := by after_results_simp
set_option maxHeartbeats 4000000 in
theorem s02_keep_arg3 : after hostOps0_2 V (Proc.devRef .tc main_arg3) = V (Proc.devRef .tc main_arg3) := by after_results_simp
set_option maxHeartbeats 4000000 in
theorem s02_keep_arg4 : after hostOps0_2 V (Proc.devRef .tc main_arg4) = V (Proc.devRef .tc main_arg4) := by after_results_simp
set_option maxHeartbeats 4000000 in
theorem s02_keep_arg5 : after hostOps0_2 V (Proc.devRef .tc main_arg5) = V (Proc.devRef .tc main_arg5) := by after_results_simp

/-! ## The first aggregation with its bias, and the clamp -/

set_option maxHeartbeats 8000000 in
theorem s1_val : after hostOps1 V (Proc.devRef .tc main_v46)
    = Cert.KernelIdeal.Glue.biased16 (F := Ideal) (V (Proc.devRef .tc main_v3)) (V (Proc.devRef .tc main_v6)) (V (Proc.devRef .tc main_v29)) (V (Proc.devRef .tc main_v30)) (V (Proc.devRef .tc main_arg3)) := by
  after_results_simp
  rfl

set_option maxHeartbeats 4000000 in
theorem s1_keep_v3 : after hostOps1 V (Proc.devRef .tc main_v3) = V (Proc.devRef .tc main_v3) := by after_results_simp
set_option maxHeartbeats 4000000 in
theorem s1_keep_v6 : after hostOps1 V (Proc.devRef .tc main_v6) = V (Proc.devRef .tc main_v6) := by after_results_simp
set_option maxHeartbeats 4000000 in
theorem s1_keep_v29 : after hostOps1 V (Proc.devRef .tc main_v29) = V (Proc.devRef .tc main_v29) := by after_results_simp
set_option maxHeartbeats 4000000 in
theorem s1_keep_arg4 : after hostOps1 V (Proc.devRef .tc main_arg4) = V (Proc.devRef .tc main_arg4) := by after_results_simp
set_option maxHeartbeats 4000000 in
theorem s1_keep_arg5 : after hostOps1 V (Proc.devRef .tc main_arg5) = V (Proc.devRef .tc main_arg5) := by after_results_simp

set_option maxHeartbeats 4000000 in
theorem s11_val : after hostOps1_1 V (Proc.devRef .tc main_v47) = Cert.KernelIdeal.Glue.clamp16 (F := Ideal) (V (Proc.devRef .tc main_v46)) := by
  after_results_simp
  simp only [Cert.Lib.HostCalls.ofBuf_toBuf]
  rfl

set_option maxHeartbeats 4000000 in
theorem s11_keep_v3 : after hostOps1_1 V (Proc.devRef .tc main_v3) = V (Proc.devRef .tc main_v3) := by after_results_simp
set_option maxHeartbeats 4000000 in
theorem s11_keep_v6 : after hostOps1_1 V (Proc.devRef .tc main_v6) = V (Proc.devRef .tc main_v6) := by after_results_simp
set_option maxHeartbeats 4000000 in
theorem s11_keep_v29 : after hostOps1_1 V (Proc.devRef .tc main_v29) = V (Proc.devRef .tc main_v29) := by after_results_simp
set_option maxHeartbeats 4000000 in
theorem s11_keep_arg4 : after hostOps1_1 V (Proc.devRef .tc main_arg4) = V (Proc.devRef .tc main_arg4) := by after_results_simp
set_option maxHeartbeats 4000000 in
theorem s11_keep_arg5 : after hostOps1_1 V (Proc.devRef .tc main_arg5) = V (Proc.devRef .tc main_arg5) := by after_results_simp

/-! ## The second aggregation with its bias -/

set_option maxHeartbeats 8000000 in
theorem s2_val : after hostOps2 V (Proc.devRef .tc main_v64)
    = Cert.KernelIdeal.Glue.layer2 (F := Ideal) (V (Proc.devRef .tc main_v3)) (V (Proc.devRef .tc main_v6)) (V (Proc.devRef .tc main_v29)) (V (Proc.devRef .tc main_v48)) (V (Proc.devRef .tc main_arg5)) := by
  after_results_simp
  rfl

/-! ## The first three stretches together: the edge vectors from the edge array -/

theorem edges_src : after hostOps0_2 (after hostOps0_1 (after hostOps0 V)) (Proc.devRef .tc main_v3) = Cert.KernelIdeal.Glue.src (F := Ideal) (V (Proc.devRef .tc main_arg1)) :=
  (s02_keep_v3 (after hostOps0_1 (after hostOps0 V))).trans ((s01_keep_v3 (after hostOps0 V)).trans (s0_src V))

theorem edges_dst : after hostOps0_2 (after hostOps0_1 (after hostOps0 V)) (Proc.devRef .tc main_v6) = Cert.KernelIdeal.Glue.dst (F := Ideal) (V (Proc.devRef .tc main_arg1)) :=
  (s02_keep_v6 (after hostOps0_1 (after hostOps0 V))).trans ((s01_keep_v6 (after hostOps0 V)).trans (s0_dst V))

theorem edges_norm : after hostOps0_2 (after hostOps0_1 (after hostOps0 V)) (Proc.devRef .tc main_v29) = Cert.KernelIdeal.Glue.norm (F := Ideal) (V (Proc.devRef .tc main_arg1)) :=
  (s02_val (after hostOps0_1 (after hostOps0 V))).trans
    (congr (congr (congrArg (Cert.KernelIdeal.Glue.edgeNorm (F := Ideal))
        ((s01_val (after hostOps0 V)).trans
          (congr (congr (congrArg (Cert.KernelIdeal.Glue.whereOr (F := Ideal)) (s0_pos V)) (s0_rsqrt V)) (s0_zero V))))
      ((s01_keep_v3 (after hostOps0 V)).trans (s0_src V)))
      ((s01_keep_v6 (after hostOps0 V)).trans (s0_dst V)))

theorem edges_keep_arg0 : after hostOps0_2 (after hostOps0_1 (after hostOps0 V)) (Proc.devRef .tc main_arg0) = V (Proc.devRef .tc main_arg0) :=
  (s02_keep_arg0 (after hostOps0_1 (after hostOps0 V))).trans ((s01_keep_arg0 (after hostOps0 V)).trans (s0_keep_arg0 V))

theorem edges_keep_arg2 : after hostOps0_2 (after hostOps0_1 (after hostOps0 V)) (Proc.devRef .tc main_arg2) = V (Proc.devRef .tc main_arg2) :=
  (s02_keep_arg2 (after hostOps0_1 (after hostOps0 V))).trans ((s01_keep_arg2 (after hostOps0 V)).trans (s0_keep_arg2 V))

theorem edges_keep_arg3 : after hostOps0_2 (after hostOps0_1 (after hostOps0 V)) (Proc.devRef .tc main_arg3) = V (Proc.devRef .tc main_arg3) :=
  (s02_keep_arg3 (after hostOps0_1 (after hostOps0 V))).trans ((s01_keep_arg3 (after hostOps0 V)).trans (s0_keep_arg3 V))

theorem edges_keep_arg4 : after hostOps0_2 (after hostOps0_1 (after hostOps0 V)) (Proc.devRef .tc main_arg4) = V (Proc.devRef .tc main_arg4) :=
  (s02_keep_arg4 (after hostOps0_1 (after hostOps0 V))).trans ((s01_keep_arg4 (after hostOps0 V)).trans (s0_keep_arg4 V))

theorem edges_keep_arg5 : after hostOps0_2 (after hostOps0_1 (after hostOps0 V)) (Proc.devRef .tc main_arg5) = V (Proc.devRef .tc main_arg5) :=
  (s02_keep_arg5 (after hostOps0_1 (after hostOps0 V))).trans ((s01_keep_arg5 (after hostOps0 V)).trans (s0_keep_arg5 V))

/-! ## The first layer's two stretches together -/

theorem layer1_val : after hostOps1_1 (after hostOps1 V) (Proc.devRef .tc main_v47)
    = Cert.KernelIdeal.Glue.layer1 (F := Ideal) (V (Proc.devRef .tc main_v3)) (V (Proc.devRef .tc main_v6)) (V (Proc.devRef .tc main_v29)) (V (Proc.devRef .tc main_v30)) (V (Proc.devRef .tc main_arg3)) :=
  (s11_val (after hostOps1 V)).trans (congrArg (Cert.KernelIdeal.Glue.clamp16 (F := Ideal)) (s1_val V))

theorem layer1_keep_v3 : after hostOps1_1 (after hostOps1 V) (Proc.devRef .tc main_v3) = V (Proc.devRef .tc main_v3) :=
  (s11_keep_v3 (after hostOps1 V)).trans (s1_keep_v3 V)

theorem layer1_keep_v6 : after hostOps1_1 (after hostOps1 V) (Proc.devRef .tc main_v6) = V (Proc.devRef .tc main_v6) :=
  (s11_keep_v6 (after hostOps1 V)).trans (s1_keep_v6 V)

theorem layer1_keep_v29 : after hostOps1_1 (after hostOps1 V) (Proc.devRef .tc main_v29) = V (Proc.devRef .tc main_v29) :=
  (s11_keep_v29 (after hostOps1 V)).trans (s1_keep_v29 V)

theorem layer1_keep_arg4 : after hostOps1_1 (after hostOps1 V) (Proc.devRef .tc main_arg4) = V (Proc.devRef .tc main_arg4) :=
  (s11_keep_arg4 (after hostOps1 V)).trans (s1_keep_arg4 V)

theorem layer1_keep_arg5 : after hostOps1_1 (after hostOps1 V) (Proc.devRef .tc main_arg5) = V (Proc.devRef .tc main_arg5) :=
  (s11_keep_arg5 (after hostOps1 V)).trans (s1_keep_arg5 V)

end Cert.KernelIdeal.Stretch

end
-- ==== Proof.Network.lean ====
/-
  The whole network as one function of its six argument arrays, over the extended reals.

  Two rounds of "dense step, then aggregate along the edges": the rows of x times W1, aggregated with the bias b1 and
  clamped at 0; the rows of that hidden array times W2, aggregated with the bias b2; and the row-wise log-softmax of the
  result. The edge vectors (sources, destinations, norms) are functions of the edge array alone. Both programs end with
  their result array at this function of their arguments.
-/
import proofs.«161500_j11123965296881_1_alg».proof.Proof.Glue
import proofs.«161500_j11123965296881_1_alg».proof.Proof.Rows

noncomputable section

namespace Cert.KernelIdeal.Glue

open Cert.KernelIdeal Idealize.ShloMosaic Cert.Gcn

/-- The network's output at every (node, class). -/
def network (x : (⟨S50000x3703, .f32⟩ : BufTy).Contents (Elt Ideal)) (e : (⟨S2x1600000, .i32⟩ : BufTy).Contents (Elt Ideal))
    (w1 : (⟨S3703x16, .f32⟩ : BufTy).Contents (Elt Ideal)) (b1 : (⟨S16, .f32⟩ : BufTy).Contents (Elt Ideal))
    (w2 : (⟨S16x6, .f32⟩ : BufTy).Contents (Elt Ideal)) (b2 : (⟨S6, .f32⟩ : BufTy).Contents (Elt Ideal)) :
    (⟨S50000x6, .f32⟩ : BufTy).Contents (Elt Ideal) :=
  fun i => logSoftmaxAt (a := 50000) (b := 6)
    (layer2 (F := Ideal) (src e) (dst e) (norm e)
      (fun j : S50000x6.Idx => dotAt (a := 50000) (K := 16) (N := 6)
        (layer1 (F := Ideal) (src e) (dst e) (norm e)
          (fun j : S50000x16.Idx => dotAt (a := 50000) (K := 3703) (N := 16) x w1 (j 0) (j 1)) b1)
        w2 (j 0) (j 1))
      b2)
    (i 0) (i 1)

end Cert.KernelIdeal.Glue

end
-- ==== Proof.Boundaries.lean ====
/-
  The idealized kernel's result array as the network function of its arguments.

  The run's buffer contents are known boundary by boundary (the launch memory folded through the stretches of host
  operations, each region's output replaced by what the region leaves). Walking that fold:
  • before region 0 the host has computed the edge vectors — sources, destinations and norms — from the edge array;
  • region 0 leaves the products of the rows of x with W1;
  • the host then aggregates them along the edges, adds the bias and clamps: the hidden array;
  • region 1 leaves the products of the rows of the hidden array with W2;
  • the host aggregates again and adds the bias: the logits;
  • region 2 leaves their row-wise log-softmax.
  A buffer that a stretch or a region does not write keeps its contents, which is how the edge vectors and the later
  arguments reach the stretches that read them. Every step is an equation between two readings of the fold, joined by
  transitivity; the fold itself is never opened.
-/
import proofs.«161500_j11123965296881_1_alg».proof.Proof.Gen.KernelIdeal.Frame
import proofs.«161500_j11123965296881_1_alg».proof.Proof.Arrays
import proofs.«161500_j11123965296881_1_alg».proof.Proof.KStretches
import proofs.«161500_j11123965296881_1_alg».proof.Proof.Network

set_option maxRecDepth 16384

noncomputable section

namespace Cert.KernelIdeal.Boundaries

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Region 0's entry: the edge vectors, and the arguments as launched -/

theorem entry0_src (c : Dev nD) : W3 (F := Ideal) m ρ c (Proc.devRef .tc main_v3) = Glue.src (F := Ideal) (m ((c : Thread nD τ).loc main_arg1)) :=
  Stretch.edges_src (W0 m ρ c)
theorem entry0_dst (c : Dev nD) : W3 (F := Ideal) m ρ c (Proc.devRef .tc main_v6) = Glue.dst (F := Ideal) (m ((c : Thread nD τ).loc main_arg1)) :=
  Stretch.edges_dst (W0 m ρ c)
theorem entry0_norm (c : Dev nD) : W3 (F := Ideal) m ρ c (Proc.devRef .tc main_v29) = Glue.norm (F := Ideal) (m ((c : Thread nD τ).loc main_arg1)) :=
  Stretch.edges_norm (W0 m ρ c)
theorem entry0_arg0 (c : Dev nD) : W3 (F := Ideal) m ρ c (Proc.devRef .tc main_arg0) = (m ((c : Thread nD τ).loc main_arg0)) :=
  Stretch.edges_keep_arg0 (W0 m ρ c)
theorem entry0_arg2 (c : Dev nD) : W3 (F := Ideal) m ρ c (Proc.devRef .tc main_arg2) = (m ((c : Thread nD τ).loc main_arg2)) :=
  Stretch.edges_keep_arg2 (W0 m ρ c)
theorem entry0_arg3 (c : Dev nD) : W3 (F := Ideal) m ρ c (Proc.devRef .tc main_arg3) = (m ((c : Thread nD τ).loc main_arg3)) :=
  Stretch.edges_keep_arg3 (W0 m ρ c)
theorem entry0_arg4 (c : Dev nD) : W3 (F := Ideal) m ρ c (Proc.devRef .tc main_arg4) = (m ((c : Thread nD τ).loc main_arg4)) :=
  Stretch.edges_keep_arg4 (W0 m ρ c)
theorem entry0_arg5 (c : Dev nD) : W3 (F := Ideal) m ρ c (Proc.devRef .tc main_arg5) = (m ((c : Thread nD τ).loc main_arg5)) :=
  Stretch.edges_keep_arg5 (W0 m ρ c)

/-! ## Region 0's exit -/

/-- The first product, named. -/
abbrev product1 (c : Dev nD) : (⟨S50000x16, .f32⟩ : BufTy).Contents (Elt Ideal) :=
  fun i => dotAt (a := 50000) (K := 3703) (N := 16) (m ((c : Thread nD τ).loc main_arg0)) (m ((c : Thread nD τ).loc main_arg2)) (i 0) (i 1)

/-- Region 0 leaves the products of the rows of x with W1. -/
theorem exit0_product (c : Dev nD) : W4 (F := Ideal) m ρ c (Proc.devRef .tc main_v30) = product1 m c :=
  (W4_arr m ρ c 2).trans ((Arrays.final0 (V3 m ρ) c).trans
    (congr (congrArg (fun (x : (⟨S50000x3703, .f32⟩ : BufTy).Contents (Elt Ideal)) (w : (⟨S3703x16, .f32⟩ : BufTy).Contents (Elt Ideal)) =>
        fun i : S50000x16.Idx => dotAt (a := 50000) (K := 3703) (N := 16) x w (i 0) (i 1)) (entry0_arg0 m ρ c)) (entry0_arg2 m ρ c)))

theorem exit0_src (c : Dev nD) : W4 (F := Ideal) m ρ c (Proc.devRef .tc main_v3) = Glue.src (F := Ideal) (m ((c : Thread nD τ).loc main_arg1)) :=
  (W4_of_ne m ρ c main_v3 (by decide)).trans (entry0_src m ρ c)
theorem exit0_dst (c : Dev nD) : W4 (F := Ideal) m ρ c (Proc.devRef .tc main_v6) = Glue.dst (F := Ideal) (m ((c : Thread nD τ).loc main_arg1)) :=
  (W4_of_ne m ρ c main_v6 (by decide)).trans (entry0_dst m ρ c)
theorem exit0_norm (c : Dev nD) : W4 (F := Ideal) m ρ c (Proc.devRef .tc main_v29) = Glue.norm (F := Ideal) (m ((c : Thread nD τ).loc main_arg1)) :=
  (W4_of_ne m ρ c main_v29 (by decide)).trans (entry0_norm m ρ c)
theorem exit0_arg3 (c : Dev nD) : W4 (F := Ideal) m ρ c (Proc.devRef .tc main_arg3) = (m ((c : Thread nD τ).loc main_arg3)) :=
  (W4_of_ne m ρ c main_arg3 (by decide)).trans (entry0_arg3 m ρ c)
theorem exit0_arg4 (c : Dev nD) : W4 (F := Ideal) m ρ c (Proc.devRef .tc main_arg4) = (m ((c : Thread nD τ).loc main_arg4)) :=
  (W4_of_ne m ρ c main_arg4 (by decide)).trans (entry0_arg4 m ρ c)
theorem exit0_arg5 (c : Dev nD) : W4 (F := Ideal) m ρ c (Proc.devRef .tc main_arg5) = (m ((c : Thread nD τ).loc main_arg5)) :=
  (W4_of_ne m ρ c main_arg5 (by decide)).trans (entry0_arg5 m ρ c)

/-! ## Region 1's entry: the hidden array -/

/-- The hidden array, named. -/
abbrev hidden (c : Dev nD) : (⟨S50000x16, .f32⟩ : BufTy).Contents (Elt Ideal) :=
  Glue.layer1 (F := Ideal) (Glue.src (m ((c : Thread nD τ).loc main_arg1))) (Glue.dst (m ((c : Thread nD τ).loc main_arg1))) (Glue.norm (m ((c : Thread nD τ).loc main_arg1))) (product1 m c) (m ((c : Thread nD τ).loc main_arg3))

theorem entry1_hidden (c : Dev nD) : W6 (F := Ideal) m ρ c (Proc.devRef .tc main_v47) = hidden m c :=
  (Stretch.layer1_val (W4 m ρ c)).trans
    (congr (congr (congr (congr (congrArg (Glue.layer1 (F := Ideal)) (exit0_src m ρ c)) (exit0_dst m ρ c)) (exit0_norm m ρ c))
      (exit0_product m ρ c)) (exit0_arg3 m ρ c))

theorem entry1_src (c : Dev nD) : W6 (F := Ideal) m ρ c (Proc.devRef .tc main_v3) = Glue.src (F := Ideal) (m ((c : Thread nD τ).loc main_arg1)) :=
  (Stretch.layer1_keep_v3 (W4 m ρ c)).trans (exit0_src m ρ c)
theorem entry1_dst (c : Dev nD) : W6 (F := Ideal) m ρ c (Proc.devRef .tc main_v6) = Glue.dst (F := Ideal) (m ((c : Thread nD τ).loc main_arg1)) :=
  (Stretch.layer1_keep_v6 (W4 m ρ c)).trans (exit0_dst m ρ c)
theorem entry1_norm (c : Dev nD) : W6 (F := Ideal) m ρ c (Proc.devRef .tc main_v29) = Glue.norm (F := Ideal) (m ((c : Thread nD τ).loc main_arg1)) :=
  (Stretch.layer1_keep_v29 (W4 m ρ c)).trans (exit0_norm m ρ c)
theorem entry1_arg4 (c : Dev nD) : W6 (F := Ideal) m ρ c (Proc.devRef .tc main_arg4) = (m ((c : Thread nD τ).loc main_arg4)) :=
  (Stretch.layer1_keep_arg4 (W4 m ρ c)).trans (exit0_arg4 m ρ c)
theorem entry1_arg5 (c : Dev nD) : W6 (F := Ideal) m ρ c (Proc.devRef .tc main_arg5) = (m ((c : Thread nD τ).loc main_arg5)) :=
  (Stretch.layer1_keep_arg5 (W4 m ρ c)).trans (exit0_arg5 m ρ c)

/-! ## Region 1's exit -/

/-- The second product, named. -/
abbrev product2 (c : Dev nD) : (⟨S50000x6, .f32⟩ : BufTy).Contents (Elt Ideal) :=
  fun i => dotAt (a := 50000) (K := 16) (N := 6) (hidden m c) (m ((c : Thread nD τ).loc main_arg4)) (i 0) (i 1)

/-- Region 1 leaves the products of the rows of the hidden array with W2. -/
theorem exit1_product (c : Dev nD) : W7 (F := Ideal) m ρ c (Proc.devRef .tc main_v48) = product2 m c :=
  (W7_arr m ρ c 2).trans ((Arrays.final1 (V6 m ρ) c).trans
    (congr (congrArg (fun (x : (⟨S50000x16, .f32⟩ : BufTy).Contents (Elt Ideal)) (w : (⟨S16x6, .f32⟩ : BufTy).Contents (Elt Ideal)) =>
        fun i : S50000x6.Idx => dotAt (a := 50000) (K := 16) (N := 6) x w (i 0) (i 1)) (entry1_hidden m ρ c)) (entry1_arg4 m ρ c)))

theorem exit1_src (c : Dev nD) : W7 (F := Ideal) m ρ c (Proc.devRef .tc main_v3) = Glue.src (F := Ideal) (m ((c : Thread nD τ).loc main_arg1)) :=
  (W7_of_ne m ρ c main_v3 (by decide)).trans (entry1_src m ρ c)
theorem exit1_dst (c : Dev nD) : W7 (F := Ideal) m ρ c (Proc.devRef .tc main_v6) = Glue.dst (F := Ideal) (m ((c : Thread nD τ).loc main_arg1)) :=
  (W7_of_ne m ρ c main_v6 (by decide)).trans (entry1_dst m ρ c)
theorem exit1_norm (c : Dev nD) : W7 (F := Ideal) m ρ c (Proc.devRef .tc main_v29) = Glue.norm (F := Ideal) (m ((c : Thread nD τ).loc main_arg1)) :=
  (W7_of_ne m ρ c main_v29 (by decide)).trans (entry1_norm m ρ c)
theorem exit1_arg5 (c : Dev nD) : W7 (F := Ideal) m ρ c (Proc.devRef .tc main_arg5) = (m ((c : Thread nD τ).loc main_arg5)) :=
  (W7_of_ne m ρ c main_arg5 (by decide)).trans (entry1_arg5 m ρ c)

/-! ## Region 2's entry and exit -/

/-- The array the log-softmax is taken of, named. -/
abbrev logits (c : Dev nD) : (⟨S50000x6, .f32⟩ : BufTy).Contents (Elt Ideal) :=
  Glue.layer2 (F := Ideal) (Glue.src (m ((c : Thread nD τ).loc main_arg1))) (Glue.dst (m ((c : Thread nD τ).loc main_arg1))) (Glue.norm (m ((c : Thread nD τ).loc main_arg1))) (product2 m c) (m ((c : Thread nD τ).loc main_arg5))

theorem entry2_logits (c : Dev nD) : W8 (F := Ideal) m ρ c (Proc.devRef .tc main_v64) = logits m c :=
  (Stretch.s2_val (W7 m ρ c)).trans
    (congr (congr (congr (congr (congrArg (Glue.layer2 (F := Ideal)) (exit1_src m ρ c)) (exit1_dst m ρ c)) (exit1_norm m ρ c))
      (exit1_product m ρ c)) (exit1_arg5 m ρ c))

/-- The result array after the run is the network function of the arguments. -/
theorem result (c : Dev nD) : W9 (F := Ideal) m ρ c (Proc.devRef .tc main_v65)
    = Glue.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 1).trans ((Arrays.final2 (V8 m ρ) c).trans
    (congrArg (fun (z : (⟨S50000x6, .f32⟩ : BufTy).Contents (Elt Ideal)) =>
        fun i : S50000x6.Idx => logSoftmaxAt (a := 50000) (b := 6) z (i 0) (i 1)) (entry2_logits m ρ c)))

end Cert.KernelIdeal.Boundaries

end
-- ==== Proof.LibHostColumns.lean ====
/-
  A host row sum and its column, read at an index.

  On the host, `sum(x, axis = -1, keepdims = True)` of an [a, b] array is a `reduce` with an add body over the last
  axis, from an initial scalar, followed by a `broadcast_in_dim` that sets the [a] vector of sums as a column [a, 1].
  Over the extended reals:
  • `hostRowSum_apply`: the reduce, read at row `p`, is the initial value plus the finite sum over `k < b` of the array
    at `(p, k)` — the reduced index with the summed coordinate put back is `(p, k)`;
  • `broadcastInDim_a_a1_apply`: the vector set as a column reads, at `(p, u)`, the vector at `p` (for any entry type).
-/
import Idealize.ShloMosaic.Lib.Pipeline.Value
import Idealize.ShloMosaic.Lib.ValueIdx
import Idealize.ShloMosaic.PureOps.Ideal.Laws

noncomputable section

namespace Cert.Lib.HostColumns

open Idealize.ShloMosaic Idealize.ShloMosaic.ValueIdx

/-- The host's sum of an [a, b] array along its last axis, from the initial scalar `init`, read at row `p`. -/
theorem hostRowSum_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init ix0 + ∑ k : Fin b, x (ix2 p k) := by
  unfold Host.reduceAdd
  rw [Ideal.hostReduceAdd_def, Ideal.hostReduceAdd_single h' h]
  refine congrArg₂ (· + ·) (congrArg init (funext fun d => d.elim0)) (Finset.sum_congr rfl fun k _ => ?_)
  exact congrArg x (funext fun d => Fin.ext (by
    match d with
    | ⟨0, _⟩ => rfl
    | ⟨1, _⟩ => rfl))

/-- A vector [a] set as a column [a, 1] by `broadcast_in_dim` along axis 0: entry `(p, u)` is the vector's entry `p`. -/
theorem broadcastInDim_a_a1_apply {α : Type} {a : ℕ} (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h x (ix2 p u) = x (ix1 p) := by
  refine broadcastInDim_apply _ h x (ix2 p u) (ix1 p) fun d => ?_
  match d with
  | ⟨0, _⟩ =>
    show p.val = if a = 1 then 0 else p.val
    split
    · have := p.isLt; omega
    · rfl

end Cert.Lib.HostColumns

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.RefSteps.lean ====
/-
  The reference's three dense steps, read entry by entry over the extended reals.

  • Its two `dot_general`s ([50000, 3703] × [3703, 16] and [50000, 16] × [16, 6], contracting the left operand's axis 1
    with the right operand's axis 0) are the products of `Cert.Gcn.dotAt`.
  • Its log-softmax (jax.nn.log_softmax along axis 1 of a [50000, 6] array) takes each row's maximum by a reduction from
    −∞, takes the maximum of that with −∞ once more (the identity), sets it as a column and spreads it over the row,
    subtracts, exponentiates, sums each row from 0, sets the sums as a column, takes the logarithm, spreads it over the
    row and subtracts: entry (p, q) is `Cert.Gcn.logSoftmaxAt`. The initial 0 of the sum is the real 0 and drops out.
-/
import proofs.«161500_j11123965296881_1_alg».proof.ReferenceIdeal
import proofs.«161500_j11123965296881_1_alg».proof.Proof.Gen.ReferenceIdeal
import proofs.«161500_j11123965296881_1_alg».proof.Proof.LibPlainDot
import proofs.«161500_j11123965296881_1_alg».proof.Proof.LibAxisFolds
import proofs.«161500_j11123965296881_1_alg».proof.Proof.LibHostColumns
import proofs.«161500_j11123965296881_1_alg».proof.Proof.LibBroadcastInDim
import proofs.«161500_j11123965296881_1_alg».proof.Proof.LibHostCalls
import proofs.«161500_j11123965296881_1_alg».proof.Proof.Rows
import Idealize.ShloMosaic.Lib.Pipeline.Value
import Idealize.ShloMosaic.Lib.ValueIdx
import Idealize.ShloMosaic.PureOps.Ideal.Laws

noncomputable section

namespace Cert.ReferenceIdeal.Steps

open Cert.ReferenceIdeal Idealize.ShloMosaic Idealize.ShloMosaic.ValueIdx Cert.Gcn
open Cert.ReferenceIdeal.Facts₀

/-- The first dense step: x times W1. -/
theorem product1 (x : FVec Ideal S50000x3703 .f32) (w : FVec Ideal S3703x16 .f32) :
    Host.dotGeneral (F := Ideal) dot_S50000x3703_S3703x16_S50000x16_1_0_0_1_n_n none x w
      = fun i : S50000x16.Idx => dotAt x w (i 0) (i 1) := by
  funext i
  obtain ⟨p, g, rfl⟩ : ∃ (p : Fin 50000) (g : Fin 16), i = ix2 p g := ⟨i 0, i 1, eq_ix2 i⟩
  show _ = dotAt x w p g
  unfold dotAt
  exact Cert.PlainDot.hostDot_apply dot_S50000x3703_S3703x16_S50000x16_1_0_0_1_n_n rfl x w p g

/-- The second dense step: the hidden array times W2. -/
theorem product2 (x : FVec Ideal S50000x16 .f32) (w : FVec Ideal S16x6 .f32) :
    Host.dotGeneral (F := Ideal) dot_S50000x16_S16x6_S50000x6_1_0_0_1_n_n none x w
      = fun i : S50000x6.Idx => dotAt x w (i 0) (i 1) := by
  funext i
  obtain ⟨p, g, rfl⟩ : ∃ (p : Fin 50000) (g : Fin 6), i = ix2 p g := ⟨i 0, i 1, eq_ix2 i⟩
  show _ = dotAt x w p g
  unfold dotAt
  exact Cert.PlainDot.hostDot_apply dot_S50000x16_S16x6_S50000x6_1_0_0_1_n_n rfl x w p g

/-- The array less its rows' maxima, as the outlined log-softmax computes it. -/
def shifted (z : FVec Ideal S50000x6 .f32) : FVec Ideal S50000x6 .f32 :=
  subf z (broadcastInDim S50000x6 ![0, 1] bcast_S50000x1_S50000x6_0_1 (broadcastInDim S50000x1 ![0] bcast_S50000_S50000x1_0
    (maximumf (broadcastInDim S50000 ![] bcast_S_S50000 (constant (F := Ideal) S_ .f32 0xFF800000#32))
      (Host.reduce FloatOps.maximumf z (constant (F := Ideal) S_ .f32 0xFF800000#32) reducesTo_S50000x6_S50000_d1 h_S_))))

/-- The outlined log-softmax as one function of its argument. -/
def hostLogSoftmax (z : FVec Ideal S50000x6 .f32) : FVec Ideal S50000x6 .f32 :=
  subf (shifted z) (broadcastInDim S50000x6 ![0, 1] bcast_S50000x1_S50000x6_0_1 (Host.log (broadcastInDim S50000x1 ![0] bcast_S50000_S50000x1_0
    (Host.reduceAdd (Host.exp (shifted z)) (constant (F := Ideal) S_ .f32 0x00000000#32) reducesTo_S50000x6_S50000_d1 h_S_))))

/-- Entry (p, q) of the shifted array is the entry less the maximum of row p. -/
theorem shifted_apply (z : FVec Ideal S50000x6 .f32) (p : Fin 50000) (q : Fin 6) :
    shifted z (ix2 p q) = z (ix2 p q) - rowMax z p := by
  unfold shifted
  rw [subf_apply]
  refine congrArg (z (ix2 p q) - ·) ?_
  refine (Cert.Lib.InDim.col_spread _ _ p q).trans ((Cert.Lib.InDim.vec_as_col _ _ p 0).trans ?_)
  show max (broadcastInDim S50000 ![] bcast_S_S50000 (constant (F := Ideal) S_ .f32 0xFF800000#32) (ix1 p))
      (Host.reduce FloatOps.maximumf z (constant (F := Ideal) S_ .f32 0xFF800000#32) reducesTo_S50000x6_S50000_d1 h_S_ (ix1 p)) = _
  rw [broadcastInDim_apply _ bcast_S_S50000 (constant (F := Ideal) S_ .f32 0xFF800000#32) (ix1 p) (fun a => a.elim0) (fun a => a.elim0)]
  rw [Cert.Lib.AxisFolds.hostLastMax_apply z _ reducesTo_S50000x6_S50000_d1 (by decide) h_S_ p]
  exact max_negInf _

/-- Entry (p, q) of the outlined log-softmax is the row-wise log-softmax's entry. -/
theorem hostLogSoftmax_eq (z : FVec Ideal S50000x6 .f32) :
    hostLogSoftmax z = fun i : S50000x6.Idx => logSoftmaxAt z (i 0) (i 1) := by
  funext i
  obtain ⟨p, q, rfl⟩ : ∃ (p : Fin 50000) (q : Fin 6), i = ix2 p q := ⟨i 0, i 1, eq_ix2 i⟩
  show _ = logSoftmaxAt z p q
  unfold hostLogSoftmax logSoftmaxAt
  rw [subf_apply, shifted_apply]
  refine congrArg ((z (ix2 p q) - rowMax z p) - ·) ?_
  refine (Cert.Lib.InDim.col_spread _ _ p q).trans ?_
  rw [Cert.Lib.HostCalls.hostLog_apply]
  refine congrArg Ideal.log ?_
  refine (Cert.Lib.InDim.vec_as_col _ _ p 0).trans ?_
  rw [Cert.Lib.HostColumns.hostRowSum_apply _ _ reducesTo_S50000x6_S50000_d1 (by decide) h_S_ p]
  have h0 : constant (F := Ideal) S_ .f32 0x00000000#32 ix0 = 0 := Ideal.ofBits_zero_f32
  rw [h0, zero_add]
  exact Finset.sum_congr rfl fun k _ => by rw [Cert.Lib.HostCalls.hostExp_apply, shifted_apply]

end Cert.ReferenceIdeal.Steps

end
-- ==== Proof.RStretches.lean ====
/-
  The reference's stretches of host operations, each read at the buffer it computes.

  The reference's 98 operations fall into nine consecutive stretches: the same six stretches of host operations the
  kernel program runs between its regions, its two `dot_general`s, and the outlined log-softmax. Over ANY contents V
  of the buffers a stretch starts from, the buffer it computes ends at one function of V's contents at the buffers the
  stretch reads, and a buffer the stretch does not write keeps V's contents.
-/
import proofs.«161500_j11123965296881_1_alg».proof.Proof.RefRunFold
import proofs.«161500_j11123965296881_1_alg».proof.Proof.RefSteps
import proofs.«161500_j11123965296881_1_alg».proof.Proof.Glue
import proofs.«161500_j11123965296881_1_alg».proof.Proof.LibHostCalls
import Idealize.ShloMosaic.Lib.StableHlo.Run

set_option maxRecDepth 16384

noncomputable section

namespace Cert.ReferenceIdeal.Stretch

open Cert.ReferenceIdeal Cert.ReferenceIdeal.ValueP
open Idealize.ShloMosaic Idealize.ShloMosaic.TcCoe Idealize.SL.Sem Idealize.ShloMosaic.StableHlo

variable (V : Valuation τ sig (Elt Ideal))

/-! ## The first stretch: endpoints, degrees -/

set_option maxHeartbeats 16000000 in
theorem s0_src : after opsA1 V (Proc.devRef .tc main_v3) = Cert.KernelIdeal.Glue.src (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 16000000 in
theorem s0_dst : after opsA1 V (Proc.devRef .tc main_v6) = Cert.KernelIdeal.Glue.dst (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 16000000 in
theorem s0_pos : after opsA1 V (Proc.devRef .tc main_v12) = Cert.KernelIdeal.Glue.degPositive (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 16000000 in
theorem s0_rsqrt : after opsA1 V (Proc.devRef .tc main_v13) = Cert.KernelIdeal.Glue.degRsqrt (F := Ideal) (V (Proc.devRef .tc main_arg1)) := by
  after_results_simp
  repeat (first
    | rw [reshape_result] | rw [unary_result] | rw [nullary_result] | rw [binary_result]
    | (rw [nullary_result_ne]; rotate_left; decide) | (rw [unary_result_ne]; rotate_left; decide)
    | (rw [binary_result_ne]; rotate_left; decide) | (rw [reshape_result_ne]; rotate_left; decide))
  rfl

set_option maxHeartbeats 4000000 in
theorem s0_zero : after opsA1 V (Proc.devRef .tc main_cst_2) = Cert.KernelIdeal.Glue.zeroScalar (F := Ideal) := by
  after_results_simp
  rfl

set_option maxHeartbeats 4000000 in
theorem s0_keep_arg0 : after opsA1 V (Proc.devRef .tc main_arg0) = V (Proc.devRef .tc main_arg0) := by after_results_simp
set_option maxHeartbeats 4000000 in
theorem s0_keep_arg2 : after opsA1 V (Proc.devRef .tc main_arg2) = V (Proc.devRef .tc main_arg2) := by after_results_simp
set_option maxHeartbeats 4000000 in
theorem s0_keep_arg3 : after opsA1 V (Proc.devRef .tc main_arg3) = V (Proc.devRef .tc main_arg3) := by after_results_simp
set_option maxHeartbeats 4000000 in
theorem s0_keep_arg4 : after opsA1 V (Proc.devRef .tc main_arg4) = V (Proc.devRef .tc main_arg4) := by after_results_simp
set_option maxHeartbeats 4000000 in
theorem s0_keep_arg5 : after opsA1 V (Proc.devRef .tc main_arg5) = V (Proc.devRef .tc main_arg5) := by after_results_simp

/-! ## The outlined where -/

set_option maxHeartbeats 4000000 in
theorem s01_val : after opsA2 V (Proc.devRef .tc main_v14)
    = Cert.KernelIdeal.Glue.whereOr (F := Ideal) (V (Proc.devRef .tc main_v12)) (V (Proc.devRef .tc main_v13)) (V (Proc.devRef .tc main_cst_2)) := by
  after_results_simp
  simp only [Cert.Lib.HostCalls.ofBuf_toBuf]
  rfl

set_option maxHeartbeats 4000000 in
theorem s01_keep_v3 : after opsA2 V (Proc.devRef .tc main_v3) = V (Proc.devRef .tc main_v3) := by after_results_simp
set_option maxHeartbeats 4000000 in
theorem s01_keep_v6 : after opsA2 V (Proc.devRef .tc main_v6) = V (Proc.devRef .tc main_v6) := by after_results_simp
set_option maxHeartbeats 4000000 in
theorem s01_keep_arg0 : after opsA2 V (Proc.devRef .tc main_arg0) = V (Proc.devRef .tc main_arg0) := by after_results_simp
set_option maxHeartbeats 4000000 in
theorem s01_keep_arg2 : after opsA2 V (Proc.devRef .tc main_arg2) = V (Proc.devRef .tc main_arg2) := by after_results_simp
set_option maxHeartbeats 4000000 in
theorem s01_keep_arg3 : after opsA2 V (Proc.devRef .tc main_arg3) = V (Proc.devRef .tc main_arg3) := by after_results_simp
set_option maxHeartbeats 4000000 in
theorem s01_keep_arg4 : after opsA2 V (Proc.devRef .tc main_arg4) = V (Proc.devRef .tc main_arg4) := by after_results_simp
set_option maxHeartbeats 4000000 in
theorem s01_keep_arg5 : after opsA2 V (Proc.devRef .tc main_arg5) = V (Proc.devRef .tc main_arg5) := by after_results_simp

/-! ## The per-edge norms -/

set_option maxHeartbeats 8000000 in
theorem s02_val : after opsA3 V (Proc.devRef .tc main_v29)
    = Cert.KernelIdeal.Glue.edgeNorm (F := Ideal) (V (Proc.devRef .tc main_v14)) (V (Proc.devRef .tc main_v3)) (V (Proc.devRef .tc main_v6)) := by
  after_results_simp
  rfl

set_option maxHeartbeats 4000000 in
theorem s02_keep_v3 : after opsA3 V (Proc.devRef .tc main_v3) = V (Proc.devRef .tc main_v3) := by after_results_simp
set_option maxHeartbeats 4000000 in
theorem s02_keep_v6 : after opsA3 V (Proc.devRef .tc main_v6) = V (Proc.devRef .tc main_v6) := by after_results_simp
set_option maxHeartbeats 4000000 in
theorem s02_keep_arg0 : after opsA3 V (Proc.devRef .tc main_arg0) = V (Proc.devRef .tc main_arg0) := by after_results_simp
set_option maxHeartbeats 4000000 in
theorem s02_keep_arg2 : after opsA3 V (Proc.devRef .tc main_arg2) = V (Proc.devRef .tc main_arg2) := by after_results_simp
set_option maxHeartbeats 4000000 in
theorem s02_keep_arg3 : after opsA3 V (Proc.devRef .tc main_arg3) = V (Proc.devRef .tc main_arg3) := by after_results_simp
set_option maxHeartbeats 4000000 in
theorem s02_keep_arg4 : after opsA3 V (Proc.devRef .tc main_arg4) = V (Proc.devRef .tc main_arg4) := by after_results_simp
set_option maxHeartbeats 4000000 in
theorem s02_keep_arg5 : after opsA3 V (Proc.devRef .tc main_arg5) = V (Proc.devRef .tc main_arg5) := by after_results_simp

/-! ## The first aggregation with its bias, and the clamp -/

set_option maxHeartbeats 8000000 in
theorem s1_val : after opsB1 V (Proc.devRef .tc main_v46)
    = Cert.KernelIdeal.Glue.biased16 (F := Ideal) (V (Proc.devRef .tc main_v3)) (V (Proc.devRef .tc main_v6)) (V (Proc.devRef .tc main_v29)) (V (Proc.devRef .tc main_v30)) (V (Proc.devRef .tc main_arg3)) := by
  after_results_simp
  rfl

set_option maxHeartbeats 4000000 in
theorem s1_keep_v3 : after opsB1 V (Proc.devRef .tc main_v3) = V (Proc.devRef .tc main_v3) := by after_results_simp
set_option maxHeartbeats 4000000 in
theorem s1_keep_v6 : after opsB1 V (Proc.devRef .tc main_v6) = V (Proc.devRef .tc main_v6) := by after_results_simp
set_option maxHeartbeats 4000000 in
theorem s1_keep_v29 : after opsB1 V (Proc.devRef .tc main_v29) = V (Proc.devRef .tc main_v29) := by after_results_simp
set_option maxHeartbeats 4000000 in
theorem s1_keep_arg4 : after opsB1 V (Proc.devRef .tc main_arg4) = V (Proc.devRef .tc main_arg4) := by after_results_simp
set_option maxHeartbeats 4000000 in
theorem s1_keep_arg5 : after opsB1 V (Proc.devRef .tc main_arg5) = V (Proc.devRef .tc main_arg5) := by after_results_simp

set_option maxHeartbeats 4000000 in
theorem s11_val : after opsB2 V (Proc.devRef .tc main_v47) = Cert.KernelIdeal.Glue.clamp16 (F := Ideal) (V (Proc.devRef .tc main_v46)) := by
  after_results_simp
  simp only [Cert.Lib.HostCalls.ofBuf_toBuf]
  rfl

set_option maxHeartbeats 4000000 in
theorem s11_keep_v3 : after opsB2 V (Proc.devRef .tc main_v3) = V (Proc.devRef .tc main_v3) := by after_results_simp
set_option maxHeartbeats 4000000 in
theorem s11_keep_v6 : after opsB2 V (Proc.devRef .tc main_v6) = V (Proc.devRef .tc main_v6) := by after_results_simp
set_option maxHeartbeats 4000000 in
theorem s11_keep_v29 : after opsB2 V (Proc.devRef .tc main_v29) = V (Proc.devRef .tc main_v29) := by after_results_simp
set_option maxHeartbeats 4000000 in
theorem s11_keep_arg4 : after opsB2 V (Proc.devRef .tc main_arg4) = V (Proc.devRef .tc main_arg4) := by after_results_simp
set_option maxHeartbeats 4000000 in
theorem s11_keep_arg5 : after opsB2 V (Proc.devRef .tc main_arg5) = V (Proc.devRef .tc main_arg5) := by after_results_simp

/-! ## The second aggregation with its bias -/

set_option maxHeartbeats 8000000 in
theorem s2_val : after opsC V (Proc.devRef .tc main_v64)
    = Cert.KernelIdeal.Glue.layer2 (F := Ideal) (V (Proc.devRef .tc main_v3)) (V (Proc.devRef .tc main_v6)) (V (Proc.devRef .tc main_v29)) (V (Proc.devRef .tc main_v48)) (V (Proc.devRef .tc main_arg5)) := by
  after_results_simp
  rfl

/-! ## The two dense steps and the outlined log-softmax -/

set_option maxHeartbeats 4000000 in
theorem d1_val : after opsD1 V (Proc.devRef .tc main_v30)
    = Host.dotGeneral (F := Ideal) (φ₁ := .f32) (φ₂ := .f32) dot_S50000x3703_S3703x16_S50000x16_1_0_0_1_n_n none (V (Proc.devRef .tc main_arg0)) (V (Proc.devRef .tc main_arg2)) := by
  after_results_simp <;> rfl

set_option maxHeartbeats 4000000 in
theorem d1_keep_v3 : after opsD1 V (Proc.devRef .tc main_v3) = V (Proc.devRef .tc main_v3) := by after_results_simp
set_option maxHeartbeats 4000000 in
theorem d1_keep_v6 : after opsD1 V (Proc.devRef .tc main_v6) = V (Proc.devRef .tc main_v6) := by after_results_simp
set_option maxHeartbeats 4000000 in
theorem d1_keep_v29 : after opsD1 V (Proc.devRef .tc main_v29) = V (Proc.devRef .tc main_v29) := by after_results_simp
set_option maxHeartbeats 4000000 in
theorem d1_keep_arg3 : after opsD1 V (Proc.devRef .tc main_arg3) = V (Proc.devRef .tc main_arg3) := by after_results_simp
set_option maxHeartbeats 4000000 in
theorem d1_keep_arg4 : after opsD1 V (Proc.devRef .tc main_arg4) = V (Proc.devRef .tc main_arg4) := by after_results_simp
set_option maxHeartbeats 4000000 in
theorem d1_keep_arg5 : after opsD1 V (Proc.devRef .tc main_arg5) = V (Proc.devRef .tc main_arg5) := by after_results_simp

set_option maxHeartbeats 4000000 in
theorem d2_val : after opsD2 V (Proc.devRef .tc main_v48)
    = Host.dotGeneral (F := Ideal) (φ₁ := .f32) (φ₂ := .f32) dot_S50000x16_S16x6_S50000x6_1_0_0_1_n_n none (V (Proc.devRef .tc main_v47)) (V (Proc.devRef .tc main_arg4)) := by
  after_results_simp <;> rfl

set_option maxHeartbeats 4000000 in
theorem d2_keep_v3 : after opsD2 V (Proc.devRef .tc main_v3) = V (Proc.devRef .tc main_v3) := by after_results_simp
set_option maxHeartbeats 4000000 in
theorem d2_keep_v6 : after opsD2 V (Proc.devRef .tc main_v6) = V (Proc.devRef .tc main_v6) := by after_results_simp
set_option maxHeartbeats 4000000 in
theorem d2_keep_v29 : after opsD2 V (Proc.devRef .tc main_v29) = V (Proc.devRef .tc main_v29) := by after_results_simp
set_option maxHeartbeats 4000000 in
theorem d2_keep_arg5 : after opsD2 V (Proc.devRef .tc main_arg5) = V (Proc.devRef .tc main_arg5) := by after_results_simp

set_option maxHeartbeats 8000000 in
theorem l_val : after opsL V (Proc.devRef .tc main_v65) = Steps.hostLogSoftmax (V (Proc.devRef .tc main_v64)) := by
  after_results_simp
  simp only [Cert.Lib.HostCalls.ofBuf_toBuf]
  rfl

/-! ## The first three stretches together: the edge vectors from the edge array -/

theorem edges_src : after opsA3 (after opsA2 (after opsA1 V)) (Proc.devRef .tc main_v3) = Cert.KernelIdeal.Glue.src (F := Ideal) (V (Proc.devRef .tc main_arg1)) :=
  (s02_keep_v3 (after opsA2 (after opsA1 V))).trans ((s01_keep_v3 (after opsA1 V)).trans (s0_src V))

theorem edges_dst : after opsA3 (after opsA2 (after opsA1 V)) (Proc.devRef .tc main_v6) = Cert.KernelIdeal.Glue.dst (F := Ideal) (V (Proc.devRef .tc main_arg1)) :=
  (s02_keep_v6 (after opsA2 (after opsA1 V))).trans ((s01_keep_v6 (after opsA1 V)).trans (s0_dst V))

theorem edges_norm : after opsA3 (after opsA2 (after opsA1 V)) (Proc.devRef .tc main_v29) = Cert.KernelIdeal.Glue.norm (F := Ideal) (V (Proc.devRef .tc main_arg1)) :=
  (s02_val (after opsA2 (after opsA1 V))).trans
    (congr (congr (congrArg (Cert.KernelIdeal.Glue.edgeNorm (F := Ideal))
        ((s01_val (after opsA1 V)).trans
          (congr (congr (congrArg (Cert.KernelIdeal.Glue.whereOr (F := Ideal)) (s0_pos V)) (s0_rsqrt V)) (s0_zero V))))
      ((s01_keep_v3 (after opsA1 V)).trans (s0_src V)))
      ((s01_keep_v6 (after opsA1 V)).trans (s0_dst V)))

theorem edges_keep_arg0 : after opsA3 (after opsA2 (after opsA1 V)) (Proc.devRef .tc main_arg0) = V (Proc.devRef .tc main_arg0) :=
  (s02_keep_arg0 (after opsA2 (after opsA1 V))).trans ((s01_keep_arg0 (after opsA1 V)).trans (s0_keep_arg0 V))

theorem edges_keep_arg2 : after opsA3 (after opsA2 (after opsA1 V)) (Proc.devRef .tc main_arg2) = V (Proc.devRef .tc main_arg2) :=
  (s02_keep_arg2 (after opsA2 (after opsA1 V))).trans ((s01_keep_arg2 (after opsA1 V)).trans (s0_keep_arg2 V))

theorem edges_keep_arg3 : after opsA3 (after opsA2 (after opsA1 V)) (Proc.devRef .tc main_arg3) = V (Proc.devRef .tc main_arg3) :=
  (s02_keep_arg3 (after opsA2 (after opsA1 V))).trans ((s01_keep_arg3 (after opsA1 V)).trans (s0_keep_arg3 V))

theorem edges_keep_arg4 : after opsA3 (after opsA2 (after opsA1 V)) (Proc.devRef .tc main_arg4) = V (Proc.devRef .tc main_arg4) :=
  (s02_keep_arg4 (after opsA2 (after opsA1 V))).trans ((s01_keep_arg4 (after opsA1 V)).trans (s0_keep_arg4 V))

theorem edges_keep_arg5 : after opsA3 (after opsA2 (after opsA1 V)) (Proc.devRef .tc main_arg5) = V (Proc.devRef .tc main_arg5) :=
  (s02_keep_arg5 (after opsA2 (after opsA1 V))).trans ((s01_keep_arg5 (after opsA1 V)).trans (s0_keep_arg5 V))

/-! ## The first layer's two stretches together -/

theorem layer1_val : after opsB2 (after opsB1 V) (Proc.devRef .tc main_v47)
    = Cert.KernelIdeal.Glue.layer1 (F := Ideal) (V (Proc.devRef .tc main_v3)) (V (Proc.devRef .tc main_v6)) (V (Proc.devRef .tc main_v29)) (V (Proc.devRef .tc main_v30)) (V (Proc.devRef .tc main_arg3)) :=
  (s11_val (after opsB1 V)).trans (congrArg (Cert.KernelIdeal.Glue.clamp16 (F := Ideal)) (s1_val V))

theorem layer1_keep_v3 : after opsB2 (after opsB1 V) (Proc.devRef .tc main_v3) = V (Proc.devRef .tc main_v3) :=
  (s11_keep_v3 (after opsB1 V)).trans (s1_keep_v3 V)

theorem layer1_keep_v6 : after opsB2 (after opsB1 V) (Proc.devRef .tc main_v6) = V (Proc.devRef .tc main_v6) :=
  (s11_keep_v6 (after opsB1 V)).trans (s1_keep_v6 V)

theorem layer1_keep_v29 : after opsB2 (after opsB1 V) (Proc.devRef .tc main_v29) = V (Proc.devRef .tc main_v29) :=
  (s11_keep_v29 (after opsB1 V)).trans (s1_keep_v29 V)

theorem layer1_keep_arg4 : after opsB2 (after opsB1 V) (Proc.devRef .tc main_arg4) = V (Proc.devRef .tc main_arg4) :=
  (s11_keep_arg4 (after opsB1 V)).trans (s1_keep_arg4 V)

theorem layer1_keep_arg5 : after opsB2 (after opsB1 V) (Proc.devRef .tc main_arg5) = V (Proc.devRef .tc main_arg5) :=
  (s11_keep_arg5 (after opsB1 V)).trans (s1_keep_arg5 V)

end Cert.ReferenceIdeal.Stretch

end
-- ==== Proof.LibAfterAppend.lean ====
/-
  A fold of host operations over a concatenated list.

  A straight line of host operations acts on the buffers' contents as a fold: each operation rewrites the buffers it
  writes and leaves the rest. Running one list and then another from where the first ended is running their
  concatenation (`after_append`). With a program's operation list written as consecutive stretches, this turns the one
  long fold into a fold per stretch, each of which can be read on its own over arbitrary starting contents.
-/
import Idealize.ShloMosaic.Lib.StableHlo.Run

noncomputable section

namespace Cert.Lib.AfterAppend

open Idealize.ShloMosaic Idealize.ShloMosaic.StableHlo

/-- The contents after `l₁ ++ l₂` from `V` are the contents after `l₂` from the contents after `l₁` from `V`. -/
theorem after_append {τ : Topo} {sig : RefSig} {Val : EltTy → Type} (l₁ l₂ : List (HloOp τ sig Val)) :
    ∀ V : Valuation τ sig Val, after (l₁ ++ l₂) V = after l₂ (after l₁ V) := by
  induction l₁ with
  | nil => intro V; rfl
  | cons op l ih => intro V; exact ih (op.result V)

end Cert.Lib.AfterAppend

end
-- ==== Proof.RefValue.lean ====
/-
  The reference's result array as the network function of its arguments.

  The reference is a straight line of 98 host operations; after its run every buffer holds the fold of their results
  over the launch memory. The list is nine consecutive stretches, so the fold is nine folds one after another. Walking
  them: the edge vectors from the edge array; the first `dot_general`, which is the product of the rows of x with W1;
  the first aggregation, bias and clamp, the hidden array; the second `dot_general`; the second aggregation and bias,
  the logits; and the outlined log-softmax, which is the row-wise log-softmax. A buffer a stretch does not write keeps
  its contents. The fold at an argument's buffer is the argument: no operation writes it.
-/
import proofs.«161500_j11123965296881_1_alg».proof.Proof.RefRunFold
import proofs.«161500_j11123965296881_1_alg».proof.Proof.RefSteps
import proofs.«161500_j11123965296881_1_alg».proof.Proof.RStretches
import proofs.«161500_j11123965296881_1_alg».proof.Proof.Network
import proofs.«161500_j11123965296881_1_alg».proof.Proof.LibAfterAppend

set_option maxRecDepth 16384

noncomputable section

namespace Cert.ReferenceIdeal.Whole

open Cert.ReferenceIdeal Cert.ReferenceIdeal.ValueP Cert.Gcn
open Idealize.ShloMosaic Idealize.ShloMosaic.TcCoe Idealize.SL.Sem Idealize.ShloMosaic.StableHlo

variable (m : (ℓ : Loc nD τ sig) → Buf (Elt Ideal) ℓ)

/-- The contents after the first three stretches (the edge vectors are there). -/
abbrev R3 (c : Dev nD) : Valuation τ sig (Elt Ideal) := after opsA3 (after opsA2 (after opsA1 (launchContents m c)))
/-- After the first dense step. -/
abbrev R4 (c : Dev nD) : Valuation τ sig (Elt Ideal) := after opsD1 (R3 m c)
/-- After the first aggregation, bias and clamp. -/
abbrev R6 (c : Dev nD) : Valuation τ sig (Elt Ideal) := after opsB2 (after opsB1 (R4 m c))
/-- After the second dense step. -/
abbrev R7 (c : Dev nD) : Valuation τ sig (Elt Ideal) := after opsD2 (R6 m c)
/-- After the second aggregation and bias. -/
abbrev R8 (c : Dev nD) : Valuation τ sig (Elt Ideal) := after opsC (R7 m c)
/-- After the outlined log-softmax: the end of the run. -/
abbrev R9 (c : Dev nD) : Valuation τ sig (Elt Ideal) := after opsL (R8 m c)

/-- The whole fold is the nine folds one after another. -/
theorem fold_eq (c : Dev nD) : after (ops (F := Ideal)) (launchContents m c) = R9 m c := by
  rw [ops_split]
  simp only [Cert.Lib.AfterAppend.after_append]

/-! ## The edge vectors and the arguments after the first three stretches -/

theorem r3_src (c : Dev nD) : R3 m c (Proc.devRef .tc main_v3) = Cert.KernelIdeal.Glue.src (F := Ideal) (m ((c.tc : Thread nD τ).loc main_arg1)) :=
  Stretch.edges_src (launchContents m c)
theorem r3_dst (c : Dev nD) : R3 m c (Proc.devRef .tc main_v6) = Cert.KernelIdeal.Glue.dst (F := Ideal) (m ((c.tc : Thread nD τ).loc main_arg1)) :=
  Stretch.edges_dst (launchContents m c)
theorem r3_norm (c : Dev nD) : R3 m c (Proc.devRef .tc main_v29) = Cert.KernelIdeal.Glue.norm (F := Ideal) (m ((c.tc : Thread nD τ).loc main_arg1)) :=
  Stretch.edges_norm (launchContents m c)
theorem r3_arg0 (c : Dev nD) : R3 m c (Proc.devRef .tc main_arg0) = (m ((c.tc : Thread nD τ).loc main_arg0)) :=
  Stretch.edges_keep_arg0 (launchContents m c)
theorem r3_arg2 (c : Dev nD) : R3 m c (Proc.devRef .tc main_arg2) = (m ((c.tc : Thread nD τ).loc main_arg2)) :=
  Stretch.edges_keep_arg2 (launchContents m c)
theorem r3_arg3 (c : Dev nD) : R3 m c (Proc.devRef .tc main_arg3) = (m ((c.tc : Thread nD τ).loc main_arg3)) :=
  Stretch.edges_keep_arg3 (launchContents m c)
theorem r3_arg4 (c : Dev nD) : R3 m c (Proc.devRef .tc main_arg4) = (m ((c.tc : Thread nD τ).loc main_arg4)) :=
  Stretch.edges_keep_arg4 (launchContents m c)
theorem r3_arg5 (c : Dev nD) : R3 m c (Proc.devRef .tc main_arg5) = (m ((c.tc : Thread nD τ).loc main_arg5)) :=
  Stretch.edges_keep_arg5 (launchContents m c)

/-! ## The first dense step -/

/-- The first product, named. -/
abbrev product1 (c : Dev nD) : (⟨S50000x16, .f32⟩ : BufTy).Contents (Elt Ideal) :=
  fun i => dotAt (a := 50000) (K := 3703) (N := 16) (m ((c.tc : Thread nD τ).loc main_arg0)) (m ((c.tc : Thread nD τ).loc main_arg2)) (i 0) (i 1)

theorem r4_product (c : Dev nD) : R4 m c (Proc.devRef .tc main_v30) = product1 m c :=
  (Stretch.d1_val (R3 m c)).trans
    ((congr (congrArg (Host.dotGeneral (F := Ideal) (φ₁ := .f32) (φ₂ := .f32) dot_S50000x3703_S3703x16_S50000x16_1_0_0_1_n_n none) (r3_arg0 m c)) (r3_arg2 m c)).trans
      (Steps.product1 _ _))

theorem r4_src (c : Dev nD) : R4 m c (Proc.devRef .tc main_v3) = Cert.KernelIdeal.Glue.src (F := Ideal) (m ((c.tc : Thread nD τ).loc main_arg1)) :=
  (Stretch.d1_keep_v3 (R3 m c)).trans (r3_src m c)
theorem r4_dst (c : Dev nD) : R4 m c (Proc.devRef .tc main_v6) = Cert.KernelIdeal.Glue.dst (F := Ideal) (m ((c.tc : Thread nD τ).loc main_arg1)) :=
  (Stretch.d1_keep_v6 (R3 m c)).trans (r3_dst m c)
theorem r4_norm (c : Dev nD) : R4 m c (Proc.devRef .tc main_v29) = Cert.KernelIdeal.Glue.norm (F := Ideal) (m ((c.tc : Thread nD τ).loc main_arg1)) :=
  (Stretch.d1_keep_v29 (R3 m c)).trans (r3_norm m c)
theorem r4_arg3 (c : Dev nD) : R4 m c (Proc.devRef .tc main_arg3) = (m ((c.tc : Thread nD τ).loc main_arg3)) :=
  (Stretch.d1_keep_arg3 (R3 m c)).trans (r3_arg3 m c)
theorem r4_arg4 (c : Dev nD) : R4 m c (Proc.devRef .tc main_arg4) = (m ((c.tc : Thread nD τ).loc main_arg4)) :=
  (Stretch.d1_keep_arg4 (R3 m c)).trans (r3_arg4 m c)
theorem r4_arg5 (c : Dev nD) : R4 m c (Proc.devRef .tc main_arg5) = (m ((c.tc : Thread nD τ).loc main_arg5)) :=
  (Stretch.d1_keep_arg5 (R3 m c)).trans (r3_arg5 m c)

/-! ## The hidden array -/

/-- The hidden array, named. -/
abbrev hidden (c : Dev nD) : (⟨S50000x16, .f32⟩ : BufTy).Contents (Elt Ideal) :=
  Cert.KernelIdeal.Glue.layer1 (F := Ideal) (Cert.KernelIdeal.Glue.src (m ((c.tc : Thread nD τ).loc main_arg1))) (Cert.KernelIdeal.Glue.dst (m ((c.tc : Thread nD τ).loc main_arg1)))
    (Cert.KernelIdeal.Glue.norm (m ((c.tc : Thread nD τ).loc main_arg1))) (product1 m c) (m ((c.tc : Thread nD τ).loc main_arg3))

theorem r6_hidden (c : Dev nD) : R6 m c (Proc.devRef .tc main_v47) = hidden m c :=
  (Stretch.layer1_val (R4 m c)).trans
    (congr (congr (congr (congr (congrArg (Cert.KernelIdeal.Glue.layer1 (F := Ideal)) (r4_src m c)) (r4_dst m c)) (r4_norm m c))
      (r4_product m c)) (r4_arg3 m c))

theorem r6_src (c : Dev nD) : R6 m c (Proc.devRef .tc main_v3) = Cert.KernelIdeal.Glue.src (F := Ideal) (m ((c.tc : Thread nD τ).loc main_arg1)) :=
  (Stretch.layer1_keep_v3 (R4 m c)).trans (r4_src m c)
theorem r6_dst (c : Dev nD) : R6 m c (Proc.devRef .tc main_v6) = Cert.KernelIdeal.Glue.dst (F := Ideal) (m ((c.tc : Thread nD τ).loc main_arg1)) :=
  (Stretch.layer1_keep_v6 (R4 m c)).trans (r4_dst m c)
theorem r6_norm (c : Dev nD) : R6 m c (Proc.devRef .tc main_v29) = Cert.KernelIdeal.Glue.norm (F := Ideal) (m ((c.tc : Thread nD τ).loc main_arg1)) :=
  (Stretch.layer1_keep_v29 (R4 m c)).trans (r4_norm m c)
theorem r6_arg4 (c : Dev nD) : R6 m c (Proc.devRef .tc main_arg4) = (m ((c.tc : Thread nD τ).loc main_arg4)) :=
  (Stretch.layer1_keep_arg4 (R4 m c)).trans (r4_arg4 m c)
theorem r6_arg5 (c : Dev nD) : R6 m c (Proc.devRef .tc main_arg5) = (m ((c.tc : Thread nD τ).loc main_arg5)) :=
  (Stretch.layer1_keep_arg5 (R4 m c)).trans (r4_arg5 m c)

/-! ## The second dense step -/

/-- The second product, named. -/
abbrev product2 (c : Dev nD) : (⟨S50000x6, .f32⟩ : BufTy).Contents (Elt Ideal) :=
  fun i => dotAt (a := 50000) (K := 16) (N := 6) (hidden m c) (m ((c.tc : Thread nD τ).loc main_arg4)) (i 0) (i 1)

theorem r7_product (c : Dev nD) : R7 m c (Proc.devRef .tc main_v48) = product2 m c :=
  (Stretch.d2_val (R6 m c)).trans
    ((congr (congrArg (Host.dotGeneral (F := Ideal) (φ₁ := .f32) (φ₂ := .f32) dot_S50000x16_S16x6_S50000x6_1_0_0_1_n_n none) (r6_hidden m c)) (r6_arg4 m c)).trans
      (Steps.product2 _ _))

theorem r7_src (c : Dev nD) : R7 m c (Proc.devRef .tc main_v3) = Cert.KernelIdeal.Glue.src (F := Ideal) (m ((c.tc : Thread nD τ).loc main_arg1)) :=
  (Stretch.d2_keep_v3 (R6 m c)).trans (r6_src m c)
theorem r7_dst (c : Dev nD) : R7 m c (Proc.devRef .tc main_v6) = Cert.KernelIdeal.Glue.dst (F := Ideal) (m ((c.tc : Thread nD τ).loc main_arg1)) :=
  (Stretch.d2_keep_v6 (R6 m c)).trans (r6_dst m c)
theorem r7_norm (c : Dev nD) : R7 m c (Proc.devRef .tc main_v29) = Cert.KernelIdeal.Glue.norm (F := Ideal) (m ((c.tc : Thread nD τ).loc main_arg1)) :=
  (Stretch.d2_keep_v29 (R6 m c)).trans (r6_norm m c)
theorem r7_arg5 (c : Dev nD) : R7 m c (Proc.devRef .tc main_arg5) = (m ((c.tc : Thread nD τ).loc main_arg5)) :=
  (Stretch.d2_keep_arg5 (R6 m c)).trans (r6_arg5 m c)

/-! ## The logits and the log-softmax -/

/-- The array the log-softmax is taken of, named. -/
abbrev logits (c : Dev nD) : (⟨S50000x6, .f32⟩ : BufTy).Contents (Elt Ideal) :=
  Cert.KernelIdeal.Glue.layer2 (F := Ideal) (Cert.KernelIdeal.Glue.src (m ((c.tc : Thread nD τ).loc main_arg1))) (Cert.KernelIdeal.Glue.dst (m ((c.tc : Thread nD τ).loc main_arg1)))
    (Cert.KernelIdeal.Glue.norm (m ((c.tc : Thread nD τ).loc main_arg1))) (product2 m c) (m ((c.tc : Thread nD τ).loc main_arg5))

theorem r8_logits (c : Dev nD) : R8 m c (Proc.devRef .tc main_v64) = logits m c :=
  (Stretch.s2_val (R7 m c)).trans
    (congr (congr (congr (congr (congrArg (Cert.KernelIdeal.Glue.layer2 (F := Ideal)) (r7_src m c)) (r7_dst m c)) (r7_norm m c))
      (r7_product m c)) (r7_arg5 m c))

/-- The reference's result array is the network function of its arguments. -/
theorem result (c : Dev nD) :
    after (ops (F := Ideal)) (launchContents m c) (Proc.devRef .tc main_v65)
      = Cert.KernelIdeal.Glue.network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (congrFun (fold_eq m c) (Proc.devRef .tc main_v65)).trans
    ((Stretch.l_val (R8 m c)).trans
      ((congrArg Steps.hostLogSoftmax (r8_logits m c)).trans (Steps.hostLogSoftmax_eq (logits m c))))

set_option maxHeartbeats 8000000 in
/-- No operation writes argument 0. -/
theorem kept_arg0 (c : Dev nD) :
    after (ops (F := Ideal)) (launchContents m c) (Proc.devRef .tc main_arg0) = (m ((c.tc : Thread nD τ).loc main_arg0)) := by
  after_results_simp <;> rfl

set_option maxHeartbeats 8000000 in
/-- No operation writes argument 1. -/
theorem kept_arg1 (c : Dev nD) :
    after (ops (F := Ideal)) (launchContents m c) (Proc.devRef .tc main_arg1) = (m ((c.tc : Thread nD τ).loc main_arg1)) := by
  after_results_simp <;> rfl

set_option maxHeartbeats 8000000 in
/-- No operation writes argument 2. -/
theorem kept_arg2 (c : Dev nD) :
    after (ops (F := Ideal)) (launchContents m c) (Proc.devRef .tc main_arg2) = (m ((c.tc : Thread nD τ).loc main_arg2)) := by
  after_results_simp <;> rfl

set_option maxHeartbeats 8000000 in
/-- No operation writes argument 3. -/
theorem kept_arg3 (c : Dev nD) :
    after (ops (F := Ideal)) (launchContents m c) (Proc.devRef .tc main_arg3) = (m ((c.tc : Thread nD τ).loc main_arg3)) := by
  after_results_simp <;> rfl

set_option maxHeartbeats 8000000 in
/-- No operation writes argument 4. -/
theorem kept_arg4 (c : Dev nD) :
    after (ops (F := Ideal)) (launchContents m c) (Proc.devRef .tc main_arg4) = (m ((c.tc : Thread nD τ).loc main_arg4)) := by
  after_results_simp <;> rfl

set_option maxHeartbeats 8000000 in
/-- No operation writes argument 5. -/
theorem kept_arg5 (c : Dev nD) :
    after (ops (F := Ideal)) (launchContents m c) (Proc.devRef .tc main_arg5) = (m ((c.tc : Thread nD τ).loc main_arg5)) := by
  after_results_simp <;> rfl

end Cert.ReferenceIdeal.Whole

end
-- ==== Proof.lean ====
/-
  A two-layer graph convolution with a log-softmax head: the tiled kernel program against its plain reference.

  Both programs compute, from node features x [50000, 3703], an edge list [2, 1600000] and the two layers' weights
  and biases, the same network: the edge list is extended by one self-loop per node, each edge is weighted by
  1/sqrt(deg(source)) · 1/sqrt(deg(destination)), and each layer is a dense step (a matrix product) followed by an
  aggregation along the edges (gather at the sources, scale, sum at the destinations) and a bias; the first layer is
  clamped at 0, the second is followed by a row-wise log-softmax.

  The kernel program does the two dense steps and the log-softmax in three pipelined regions, block of rows by block of
  rows (1000, 5000 and 5000 rows at a time), rounding the products' operands to bf16; the reference does them with
  `dot_general` and the outlined log-softmax. Over the extended reals a change of float format is the identity, a
  product's entry is the same finite sum however the rows are grouped, and the log-softmax of a row reads that row
  only: so each region leaves in its output array exactly what the reference's operation computes, entry by entry.
  The host operations around the dense steps are the same in the two programs, so the two results are one function of
  the arguments (`Cert.KernelIdeal.Glue.network`). No law that needs finiteness is used, and the precondition is
  never opened.

  • The word-level kernel's and the idealized kernel's frames are the generated frame theorems.
  • The reference's frame is its run (every buffer at the fold of its 98 operations over the launch memory) read at
    the six argument buffers, which no operation writes.
  • The idealization rewrote nothing, so there is nothing to preserve.
  • The value claim: the idealized kernel's run ends with its result array at the network function of its arguments
    (`Boundaries.result`), the reference's run with its result array at the same function of its own arguments
    (`Whole.result`), and the two argument lists agree.
-/
import proofs.«161500_j11123965296881_1_alg».proof.Defs
import proofs.«161500_j11123965296881_1_alg».proof.Proof.Gen.Kernel
import proofs.«161500_j11123965296881_1_alg».proof.Proof.Gen.Kernel.Skeleton
import proofs.«161500_j11123965296881_1_alg».proof.Proof.Gen.Kernel.Launch
import proofs.«161500_j11123965296881_1_alg».proof.Proof.Gen.Kernel.Points
import proofs.«161500_j11123965296881_1_alg».proof.Proof.Gen.Kernel.Frame
import proofs.«161500_j11123965296881_1_alg».proof.Proof.Gen.KernelIdeal
import proofs.«161500_j11123965296881_1_alg».proof.Proof.Gen.KernelIdeal.Skeleton
import proofs.«161500_j11123965296881_1_alg».proof.Proof.Gen.KernelIdeal.Launch
import proofs.«161500_j11123965296881_1_alg».proof.Proof.Gen.KernelIdeal.Points
import proofs.«161500_j11123965296881_1_alg».proof.Proof.Gen.KernelIdeal.Frame
import proofs.«161500_j11123965296881_1_alg».proof.Proof.Gen.ReferenceIdeal
import proofs.«161500_j11123965296881_1_alg».proof.Proof.Gen.Pre_finite_inputs
import proofs.«161500_j11123965296881_1_alg».proof.Proof.KernelRun
import proofs.«161500_j11123965296881_1_alg».proof.Proof.Boundaries
import proofs.«161500_j11123965296881_1_alg».proof.Proof.RefRunFold
import proofs.«161500_j11123965296881_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : @Cert.frame_Kernel Cert.Kernel.Gen.facts Cert.Pre_finite_inputs.Gen.facts :=
  fun m ρ _ => Cert.Kernel.Gen.frame m ρ

/-- The idealized kernel runs and leaves its arguments unchanged. -/
theorem frame_kernelIdeal : @Cert.frame_KernelIdeal Cert.KernelIdeal.Gen.facts Cert.Pre_finite_inputs.Gen.facts :=
  fun m ρ _ => Cert.KernelIdeal.Gen.frame m ρ

/-- The reference runs and leaves its arguments unchanged: no operation writes an argument's buffer. -/
theorem frame_referenceIdeal : @Cert.frame_ReferenceIdeal Cert.ReferenceIdeal.Gen.facts Cert.Pre_finite_inputs.Gen.facts :=
  fun m ρ _ => (θ_run Cert.ReferenceIdeal.defs _ _).mono (fun r h c =>
    ⟨(h c Cert.ReferenceIdeal.main_arg0).trans (Cert.ReferenceIdeal.Whole.kept_arg0 m c),
     (h c Cert.ReferenceIdeal.main_arg1).trans (Cert.ReferenceIdeal.Whole.kept_arg1 m c),
     (h c Cert.ReferenceIdeal.main_arg2).trans (Cert.ReferenceIdeal.Whole.kept_arg2 m c),
     (h c Cert.ReferenceIdeal.main_arg3).trans (Cert.ReferenceIdeal.Whole.kept_arg3 m c),
     (h c Cert.ReferenceIdeal.main_arg4).trans (Cert.ReferenceIdeal.Whole.kept_arg4 m c),
     (h c Cert.ReferenceIdeal.main_arg5).trans (Cert.ReferenceIdeal.Whole.kept_arg5 m c)⟩)
    (Cert.ReferenceIdeal.ValueP.run_fold (F := Ideal) m ρ)

/-- The idealization rewrote no operation. -/
theorem preserves : Cert.preserves_Kernel_KernelIdeal := trivial

/-- From memories agreeing on the arguments both idealized programs run and end with their result arrays at the
    network function of the arguments, entry by entry. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Glue.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundaries.result m ρ c), (h c).2⟩)
      (Cert.KernelIdeal.Folded.run_named (F := Ideal) m ρ)
  · refine (θ_run Cert.ReferenceIdeal.defs _ _).mono (fun r h c => ?_) (Cert.ReferenceIdeal.ValueP.run_fold (F := Ideal) m' ρ')
    obtain ⟨h0, h1, h2, h3, h4, h5⟩ := hagree c
    refine ⟨?_,
      (h c Cert.ReferenceIdeal.main_arg0).trans (Cert.ReferenceIdeal.Whole.kept_arg0 m' c),
      (h c Cert.ReferenceIdeal.main_arg1).trans (Cert.ReferenceIdeal.Whole.kept_arg1 m' c),
      (h c Cert.ReferenceIdeal.main_arg2).trans (Cert.ReferenceIdeal.Whole.kept_arg2 m' c),
      (h c Cert.ReferenceIdeal.main_arg3).trans (Cert.ReferenceIdeal.Whole.kept_arg3 m' c),
      (h c Cert.ReferenceIdeal.main_arg4).trans (Cert.ReferenceIdeal.Whole.kept_arg4 m' c),
      (h c Cert.ReferenceIdeal.main_arg5).trans (Cert.ReferenceIdeal.Whole.kept_arg5 m' c)⟩
    rw [h c Cert.ReferenceIdeal.main_v65, Cert.ReferenceIdeal.Whole.result m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
